-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x4 .f32) (main_arg1 : IVec S2x1600000 32) (main_arg2 : FVec F S4x128 .f32) (main_arg3 : FVec F S128 .f32) (main_arg4 : FVec F S128x2 .f32) (main_arg5 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg2
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S5000x4 : Shape := ⟨2, ![5000, 4]⟩
abbrev S5000x128 : Shape := ⟨2, ![5000, 128]⟩
abbrev S1600000x128 : Shape := ⟨2, ![1600000, 128]⟩
abbrev S1x128 : Shape := ⟨2, ![1, 128]⟩
abbrev S100000x1 : Shape := ⟨2, ![100000, 1]⟩
abbrev S5000x1 : Shape := ⟨2, ![5000, 1]⟩
abbrev S100000x2 : Shape := ⟨2, ![100000, 2]⟩
abbrev S5000x2 : Shape := ⟨2, ![5000, 2]⟩
abbrev S1600000x2 : Shape := ⟨2, ![1600000, 2]⟩
abbrev S1x2 : Shape := ⟨2, ![1, 2]⟩
abbrev S5000 : Shape := ⟨1, ![5000]⟩

abbrev nBuf : Space → Nat
  | .hbm => 80
  | .vmem => 28
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S4x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S1x128, .f32⟩
  | .hbm, ⟨58, _⟩ => ⟨S100000x1, .f32⟩
  | .hbm, ⟨59, _⟩ => ⟨S100000x128, .f32⟩
  | .hbm, ⟨60, _⟩ => ⟨S100000x2, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x2, .f32⟩
  | .hbm, ⟨70, _⟩ => ⟨S1600000x1, .f32⟩
  | .hbm, ⟨71, _⟩ => ⟨S1600000x2, .f32⟩
  | .hbm, ⟨72, _⟩ => ⟨S1600000x2, .f32⟩
  | .hbm, ⟨73, _⟩ => ⟨S_, .f32⟩
  | .hbm, ⟨74, _⟩ => ⟨S100000x2, .f32⟩
  | .hbm, ⟨75, _⟩ => ⟨S1600000x1, .i32⟩
  | .hbm, ⟨76, _⟩ => ⟨S100000x2, .f32⟩
  | .hbm, ⟨77, _⟩ => ⟨S1x2, .f32⟩
  | .hbm, ⟨78, _⟩ => ⟨S100000x1, .f32⟩
  | .hbm, ⟨79, _⟩ => ⟨S100000x2, .f32⟩
  | .local _ .vmem, ⟨0, _⟩ => ⟨S5000x4, .f32⟩
  | .local _ .vmem, ⟨1, _⟩ => ⟨S5000x4, .f32⟩
  | .local _ .vmem, ⟨2, _⟩ => ⟨S4x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x2, .f32⟩
  | .local _ .vmem, ⟨17, _⟩ => ⟨S5000x2, .f32⟩
  | .local _ .vmem, ⟨18, _⟩ => ⟨S5000x2, .f32⟩
  | .local _ .vmem, ⟨19, _⟩ => ⟨S5000x2, .f32⟩
  | .local _ .vmem, ⟨20, _⟩ => ⟨S5000x2, .f32⟩
  | .local _ .vmem, ⟨21, _⟩ => ⟨S5000x2, .f32⟩
  | .local _ .vmem, ⟨22, _⟩ => ⟨S5000x2, .f32⟩
  | .local _ .vmem, ⟨23, _⟩ => ⟨S5000x1, .f32⟩
  | .local _ .vmem, ⟨24, _⟩ => ⟨S5000x1, .f32⟩
  | .local _ .vmem, ⟨25, _⟩ => ⟨S1x2, .f32⟩
  | .local _ .vmem, ⟨26, _⟩ => ⟨S5000x2, .f32⟩
  | .local _ .vmem, ⟨27, _⟩ => ⟨S5000x2, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x2 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x128_S4x128_0_0 : ∀ a, (![0, 0] : Fin 2 → Nat) a + S4x128.size a ≤ S4x128.size a
  h_S4x128 : 0 < S4x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S100000_S100000x1 : S100000.ShapeCasts S100000x1
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S5000x2_S5000x2_0_0 : ∀ a, (![0, 0] : Fin 2 → Nat) a + S5000x2.size a ≤ S5000x2.size a
  h_S5000x2 : 0 < S5000x2.numel
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  broadcasts_S5000x1_S5000x2 : S5000x1.Broadcasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x4_S4x128_S5000x128_1_0_0_1_n_n_wf : DotDims.WF S5000x4 S4x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x2_S5000x2_1_0_0_1_n_n_wf : DotDims.WF S5000x128 S128x2 S5000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x2.size a ≤ S128x2.size a
  hwx2_1 : ∀ i : grid2.Coords, EltTy.bits .f32 = 32 ∨ (Rect.block (s := S128x2) S128x2.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x2.size a ≤ S100000x2.size a
  hwx2_2 : ∀ i : grid2.Coords, EltTy.bits .f32 = 32 ∨ (Rect.block (s := S100000x2) S5000x2.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x2.size a ≤ S100000x2.size a
  hwx3_0 : ∀ i : grid3.Coords, EltTy.bits .f32 = 32 ∨ (Rect.block (s := S100000x2) S5000x2.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S100000x2.size a
  hwx3_1 : ∀ i : grid3.Coords, EltTy.bits .f32 = 32 ∨ (Rect.block (s := S100000x2) S5000x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S100000x2.size a
  hwx3_4 : ∀ i : grid3.Coords, EltTy.bits .f32 = 32 ∨ (Rect.block (s := S100000x2) S5000x2.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x4_S4x128_S5000x128_1_0_0_1_n_n : DotDims S5000x4 S4x128 S5000x128 where
  lhsContracting := [1]
  rhsContracting := [0]
  lhsNonContracting := [0]
  rhsNonContracting := [1]
  lhsBatch := []
  rhsBatch := []
  wf := dot_S5000x4_S4x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x2.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x2.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x2.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S5000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x4 : Shape := ⟨2, ![100000, 4]⟩
abbrev S2x1600000 : Shape := ⟨2, ![2, 1600000]⟩
abbrev S4x128 : Shape := ⟨2, ![4, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 136
  | .vmem => 0
  | .smem => 0
  | _ => 0

abbrev hbmTy0_0 (i : Nat) : BufTy := match i % 128 with
  | 0 => ⟨S100000x4, .f32⟩
  | 1 => ⟨S2x1600000, .i32⟩
  | 2 => ⟨S4x128, .f32⟩
  | 3 => ⟨S128, .f32⟩
  | 4 => ⟨S128x2, .f32⟩
  | 5 => ⟨S2, .f32⟩
  | 6 => ⟨S1x1600000, .i32⟩
  | 7 => ⟨S1600000, .i32⟩
  | 8 => ⟨S1x1600000, .i32⟩
  | 9 => ⟨S1600000, .i32⟩
  | 10 => ⟨S100000x128, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x128, .f32⟩
  | 49 => ⟨S1600000x1, .f32⟩
  | 50 => ⟨S1600000x128, .f32⟩
  | 51 => ⟨S1600000x128, .f32⟩
  | 52 => ⟨S_, .f32⟩
  | 53 => ⟨S100000x128, .f32⟩
  | 54 => ⟨S1600000x1, .i32⟩
  | 55 => ⟨S100000x128, .f32⟩
  | 56 => ⟨S100000, .f32⟩
  | 57 => ⟨S100000x1, .f32⟩
  | 58 => ⟨S100000x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x2, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x2, .f32⟩
  | 106 => ⟨S1600000x1, .f32⟩
  | 107 => ⟨S1600000x2, .f32⟩
  | 108 => ⟨S1600000x2, .f32⟩
  | 109 => ⟨S_, .f32⟩
  | 110 => ⟨S100000x2, .f32⟩
  | 111 => ⟨S1600000x1, .i32⟩
  | 112 => ⟨S100000x2, .f32⟩
  | 113 => ⟨S100000, .f32⟩
  | 114 => ⟨S100000x1, .f32⟩
  | 115 => ⟨S100000x2, .f32⟩
  | 116 => ⟨S100000x2, .f32⟩
  | 117 => ⟨S100000x2, .f32⟩
  | 118 => ⟨S1x2, .f32⟩
  | 119 => ⟨S100000x2, .f32⟩
  | 120 => ⟨S100000x2, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x2, .f32⟩
  | _ => ⟨S100000x4, .f32⟩

abbrev hbmTy0_1 (i : Nat) : BufTy := match i % 128 with
  | 0 => ⟨S100000x2, .f32⟩
  | 1 => ⟨S100000x2, .f32⟩
  | 2 => ⟨S_, .f32⟩
  | 3 => ⟨S100000, .f32⟩
  | 4 => ⟨S100000x1, .f32⟩
  | 5 => ⟨S100000x1, .f32⟩
  | 6 => ⟨S100000x2, .f32⟩
  | 7 => ⟨S100000x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x2_0_1 : S1600000x1.BroadcastsInDim S1600000x2 (![0, 1] : Fin 2 → Fin S1600000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  dot_S100000x4_S4x128_S100000x128_1_0_0_1_n_n_wf : DotDims.WF S100000x4 S4x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KernelRun.lean ====
/-
  The kernel program's run with its result read: every weakly fair execution of the four-region program
  terminates, nothing faulting, with the result buffer holding what the last region's write-backs leave there
  (the contents at the last segment boundary) and the six argument arrays as launched.
-/
import proofs.«181389_j21397527069336_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's segments run from the launch memory to the last boundary; every unscoped buffer then holds that
    boundary's contents, in particular the result buffer (the last region's output array) and each argument. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Bridge

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.RegionDense.lean ====
/-
  The two matrix products of the graph convolution, block by block.

  Each product region runs over twenty grid points; point `t` multiplies rows `5000 t … 5000 t + 4999` of its left
  array by the whole right array and writes the result back as the same rows of its output. At the exact extended-real
  values a block product into a zero accumulator is the plain sum over the contraction index, the operands' roundings
  being the identity; entry `(p, q)` of block `t` is therefore entry `(5000 t + p, q)` of the whole-array product,
  which is what the reference's `dot_general` is at that index. The twenty row blocks tile the output, so after the
  region the output array is the reference's product.
-/
import proofs.«181389_j21397527069336_1_alg».proof.Proof.Gen.KernelIdeal.Frame
import proofs.«181389_j21397527069336_1_alg».proof.Proof.RefRead
import proofs.«181389_j21397527069336_1_alg».proof.Proof.LibDense
import Idealize.ShloMosaic.Lib.ValueIdx
import Idealize.ShloMosaic.Lib.Pipeline.Value
import Idealize.ShloMosaic.PureOps.Ideal.Laws

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen

/-! ## Where the kernel's two products read their operands -/

theorem dense1_lhs0 (i : S5000x128.Idx) (k : dot_S5000x4_S4x128_S5000x128_1_0_0_1_n_n.contr.Idx) :
    (dot_S5000x4_S4x128_S5000x128_1_0_0_1_n_n.lhsIdx i k 0).val = (i 0).val := by
  unfold DotDims.lhsIdx
  rw [dif_neg (show ¬(0 : Fin S5000x4.rank) ∈ dot_S5000x4_S4x128_S5000x128_1_0_0_1_n_n.lhsBatch by decide), dif_pos (show (0 : Fin S5000x4.rank) ∈ dot_S5000x4_S4x128_S5000x128_1_0_0_1_n_n.lhsNonContracting by decide)]
  rfl
theorem dense1_lhs1 (i : S5000x128.Idx) (k : dot_S5000x4_S4x128_S5000x128_1_0_0_1_n_n.contr.Idx) :
    (dot_S5000x4_S4x128_S5000x128_1_0_0_1_n_n.lhsIdx i k 1).val = (k ⟨0, by decide⟩).val :=
  dot_S5000x4_S4x128_S5000x128_1_0_0_1_n_n.lhsIdx_val_of_single rfl i k
theorem dense1_rhs0 (i : S5000x128.Idx) (k : dot_S5000x4_S4x128_S5000x128_1_0_0_1_n_n.contr.Idx) :
    (dot_S5000x4_S4x128_S5000x128_1_0_0_1_n_n.rhsIdx i k 0).val = (k ⟨0, by decide⟩).val :=
  dot_S5000x4_S4x128_S5000x128_1_0_0_1_n_n.rhsIdx_val_of_single rfl i k
theorem dense1_rhs1 (i : S5000x128.Idx) (k : dot_S5000x4_S4x128_S5000x128_1_0_0_1_n_n.contr.Idx) :
    (dot_S5000x4_S4x128_S5000x128_1_0_0_1_n_n.rhsIdx i k 1).val = (i 1).val := by
  unfold DotDims.rhsIdx
  rw [dif_neg (show ¬(1 : Fin S4x128.rank) ∈ dot_S5000x4_S4x128_S5000x128_1_0_0_1_n_n.rhsBatch by decide), dif_pos (show (1 : Fin S4x128.rank) ∈ dot_S5000x4_S4x128_S5000x128_1_0_0_1_n_n.rhsNonContracting by decide)]
  rfl

/-- The first layer's block product at row `p`, column `q`: the row of the feature block against the column of
    the weights (the roundings of the operands are the identity on extended reals). -/
theorem dense1_block_apply (x0 : FVec Ideal S5000x4 .f32) (x1 : FVec Ideal S4x128 .f32) (p : Fin 5000) (q : Fin 128) :
    k0_pay1 (F := Ideal) x0 x1 (ix2 p q) = ∑ k : Fin 4, x0 (ix2 p k) * x1 (ix2 k q) := by
  unfold k0_pay1
  exact matmul_zero_plain_apply (n := 5000) (K := 4) (h := 128) dot_S5000x4_S4x128_S5000x128_1_0_0_1_n_n none rfl rfl
    dense1_lhs0 dense1_lhs1 dense1_rhs0 dense1_rhs1 (truncf .bf16 x0 bitsLt_bf16_f32) (truncf .bf16 x1 bitsLt_bf16_f32) p q

/-! ## Region 0: the first layer's product, from blocks to the array -/

theorem origin2 : (![0, 0] : Fin 2 → Nat) = fun _ => 0 := funext fun a => by fin_cases a <;> rfl

/-- The printed index maps of the first product, decided over the grid: the feature rows' block moves with the output's
    along the rows, the weights' block and every column index stay at zero, and the output's row-block index is the
    grid point. -/
theorem dense1_idx : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the output is some point's. -/
theorem dense1_onto : ∀ (b : Fin 20), ∃ t : Fin cfg0.N, win0_2.index t = ![b.val, 0] :=
  (by decide +kernel : ∀ (b : Fin 20), ∃ t : Fin grid0.N, win0_2.index t = ![b.val, 0])

section Region0
variable (V : (c : Dev nD) → (b : Ref sig .tc) → Buf (Elt Ideal) ((c : Thread nD τ).loc b)) (c : Dev nD)

/-- What point `t` writes back is block `t` of the reference's first product of the two argument arrays. -/
theorem dense1_flushed (a0 : (⟨Cert.ReferenceIdeal.S100000x4, .f32⟩ : BufTy).Contents (Elt Ideal)) (a2 : (⟨Cert.ReferenceIdeal.S4x128, .f32⟩ : BufTy).Contents (Elt Ideal))
    (h0 : V c main_arg0 = a0) (h1 : V c main_arg2 = a2) (t : Fin cfg0.N) :
    (dat0 V c).flushed 2 t = ((cfg0.win 2).blk t).view.read (Elt Ideal) (Cert.ReferenceIdeal.ReadP.val_main_v4 (F := Ideal) a0 a2) := by
  show (cfg0.win 2).cut (grid0.coords t) ((dat0 V c).after 2 t) = _
  rw [after0_2]
  unfold out0_2
  rw [View.canon_unit_zero origin2]
  simp only [View.ld_unit_zero (S := S5000x4) origin2, View.ld_unit_zero (S := S4x128) origin2]
  obtain ⟨e0, e1, e2, e3, e4, e5⟩ := dense1_idx t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q) = Cert.ReferenceIdeal.ReadP.val_main_v4 (F := Ideal) a0 a2 (((cfg0.win 2).blk t).view.emb (ix2 p q))
  refine (dense1_block_apply _ _ p q).trans ?_
  rw [Cert.ReferenceIdeal.ReadP.val_main_v4_apply]
  refine Finset.sum_congr rfl fun k _ => ?_
  have hl : iblk0 V c 0 t (ix2 p k) = a0 (Cert.ReferenceIdeal.ReadP.lidx_main_v4 (((cfg0.win 2).blk t).view.emb (ix2 p q)) k) := by
    show V c main_arg0 (((cfg0.win 0).blk t).view.emb (ix2 p k)) = _
    rw [h0]
    refine congrArg a0 (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 4 + 1 * k.val = k.val; omega
  have hr : iblk0 V c 1 t (ix2 k q) = a2 (Cert.ReferenceIdeal.ReadP.ridx_main_v4 (((cfg0.win 2).blk t).view.emb (ix2 p q)) k) := by
    show V c main_arg2 (((cfg0.win 1).blk t).view.emb (ix2 k q)) = _
    rw [h1]
    refine congrArg a2 (funext fun a => Fin.ext ?_)
    match a with
    | ⟨0, _⟩ => show win0_1.index t (0 : Fin 2) * 4 + 1 * k.val = k.val; omega
    | ⟨1, _⟩ => show win0_1.index t (1 : Fin 2) * 128 + 1 * q.val = win0_2.index t (1 : Fin 2) * 128 + 1 * q.val; omega
  rw [hl, hr]

/-- An index of the output array is in point `t`'s block iff each coordinate is in the block's range on its axis. -/
theorem dense1_mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- The output's twenty row blocks fill it: row `r` is in the block of point `r / 5000`. -/
theorem dense1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := dense1_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [dense1_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- Region 0 leaves in its output array the reference's first product of the argument arrays. -/
theorem region0_value (a0 : (⟨Cert.ReferenceIdeal.S100000x4, .f32⟩ : BufTy).Contents (Elt Ideal)) (a2 : (⟨Cert.ReferenceIdeal.S4x128, .f32⟩ : BufTy).Contents (Elt Ideal)) (h0 : V c main_arg0 = a0) (h1 : V c main_arg2 = a2) :
    (dat0 V c).arrAt 2 cfg0.N = Cert.ReferenceIdeal.ReadP.val_main_v4 (F := Ideal) a0 a2 :=
  (dat0 V c).arrAt_eq_of_cover 2 (Cert.ReferenceIdeal.ReadP.val_main_v4 (F := Ideal) a0 a2)
    (fun t _ => dense1_flushed V c a0 a2 h0 h1 t) dense1_cover

end Region0

/-! ## Region 2: the second layer's product -/

theorem dense2_lhs0 (i : S5000x2.Idx) (k : dot_S5000x128_S128x2_S5000x2_1_0_0_1_n_n.contr.Idx) :
    (dot_S5000x128_S128x2_S5000x2_1_0_0_1_n_n.lhsIdx i k 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem dense2_lhs1 (i : S5000x2.Idx) (k : dot_S5000x128_S128x2_S5000x2_1_0_0_1_n_n.contr.Idx) :
    (dot_S5000x128_S128x2_S5000x2_1_0_0_1_n_n.lhsIdx i k 1).val = (k ⟨0, by decide⟩).val :=
  dot_S5000x128_S128x2_S5000x2_1_0_0_1_n_n.lhsIdx_val_of_single rfl i k
theorem dense2_rhs0 (i : S5000x2.Idx) (k : dot_S5000x128_S128x2_S5000x2_1_0_0_1_n_n.contr.Idx) :
    (dot_S5000x128_S128x2_S5000x2_1_0_0_1_n_n.rhsIdx i k 0).val = (k ⟨0, by decide⟩).val :=
  dot_S5000x128_S128x2_S5000x2_1_0_0_1_n_n.rhsIdx_val_of_single rfl i k
theorem dense2_rhs1 (i : S5000x2.Idx) (k : dot_S5000x128_S128x2_S5000x2_1_0_0_1_n_n.contr.Idx) :
    (dot_S5000x128_S128x2_S5000x2_1_0_0_1_n_n.rhsIdx i k 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The second layer's block product at row `p`, column `q`: the row of the hidden block against the column of the
    weights (the cast to the same shape and the roundings of the operands are the identity on extended reals). -/
theorem dense2_block_apply (x0 : FVec Ideal S5000x128 .f32) (x1 : FVec Ideal S128x2 .f32) (p : Fin 5000) (q : Fin 2) :
    k2_pay1 (F := Ideal) x0 x1 (ix2 p q) = ∑ k : Fin 128, x0 (ix2 p k) * x1 (ix2 k q) := by
  unfold k2_pay1
  refine (matmul_zero_plain_apply (n := 5000) (K := 128) (h := 2) dot_S5000x128_S128x2_S5000x2_1_0_0_1_n_n none rfl rfl
    dense2_lhs0 dense2_lhs1 dense2_rhs0 dense2_rhs1
    (truncf .bf16 (shapeCast S5000x128 x0 shapeCasts_S5000x128_S5000x128) bitsLt_bf16_f32) (truncf .bf16 x1 bitsLt_bf16_f32) p q).trans ?_
  refine Finset.sum_congr rfl fun k _ => ?_
  show shapeCast S5000x128 x0 shapeCasts_S5000x128_S5000x128 (ix2 p k) * x1 (ix2 k q) = _
  rw [shapeCast_self]

/-- The printed index maps of the second product, decided over the grid: the hidden rows' block moves with the output's
    along the rows, the weights' block and every column index stay at zero. -/
theorem dense2_idx : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block of the output is some point's. -/
theorem dense2_onto : ∀ (b : Fin 20), ∃ t : Fin cfg2.N, win2_2.index t = ![b.val, 0] :=
  (by decide +kernel : ∀ (b : Fin 20), ∃ t : Fin grid2.N, win2_2.index t = ![b.val, 0])

section Region2
variable (V : (c : Dev nD) → (b : Ref sig .tc) → Buf (Elt Ideal) ((c : Thread nD τ).loc b)) (c : Dev nD)

/-- What point `t` writes back is block `t` of any array `G` whose entry at `i` is row `i 0` of the hidden
    activations `y` the region finds against column `i 1` of the second weights. -/
theorem dense2_flushed_of (y : (⟨Cert.ReferenceIdeal.S100000x128, .f32⟩ : BufTy).Contents (Elt Ideal)) (a4 : (⟨Cert.ReferenceIdeal.S128x2, .f32⟩ : BufTy).Contents (Elt Ideal))
    (G : (⟨Cert.ReferenceIdeal.S100000x2, .f32⟩ : BufTy).Contents (Elt Ideal))
    (hG : ∀ i, G i = ∑ k : Fin 128, y (Cert.ReferenceIdeal.ReadP.lidx_main_v49 i k) * a4 (Cert.ReferenceIdeal.ReadP.ridx_main_v49 i k))
    (h0 : V c main_v43 = y) (h1 : V c main_arg4 = a4) (t : Fin cfg2.N) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero origin2]
  simp only [View.ld_unit_zero (S := S5000x128) origin2, View.ld_unit_zero (S := S128x2) origin2]
  obtain ⟨e0, e1, e2, e3, e4, e5⟩ := dense2_idx t
  funext j
  obtain ⟨p, q, rfl⟩ : ∃ (p : Fin 5000) (q : Fin 2), j = ix2 p q := ⟨j 0, j 1, eq_ix2 j⟩
  show k2_pay1 (F := Ideal) (iblk2 V c 0 t) (iblk2 V c 1 t) (ix2 p q) = G (((cfg2.win 2).blk t).view.emb (ix2 p q))
  refine (dense2_block_apply _ _ p q).trans ?_
  rw [hG]
  refine Finset.sum_congr rfl fun k _ => ?_
  have hl : iblk2 V c 0 t (ix2 p k) = y (Cert.ReferenceIdeal.ReadP.lidx_main_v49 (((cfg2.win 2).blk t).view.emb (ix2 p q)) k) := by
    show V c main_v43 (((cfg2.win 0).blk t).view.emb (ix2 p k)) = _
    rw [h0]
    refine congrArg y (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have hr : iblk2 V c 1 t (ix2 k q) = a4 (Cert.ReferenceIdeal.ReadP.ridx_main_v49 (((cfg2.win 2).blk t).view.emb (ix2 p q)) k) := by
    show V c main_arg4 (((cfg2.win 1).blk t).view.emb (ix2 k q)) = _
    rw [h1]
    refine congrArg a4 (funext fun a => Fin.ext ?_)
    match a with
    | ⟨0, _⟩ => show win2_1.index t (0 : Fin 2) * 128 + 1 * k.val = k.val; omega
    | ⟨1, _⟩ => show win2_1.index t (1 : Fin 2) * 2 + 1 * q.val = win2_2.index t (1 : Fin 2) * 2 + 1 * q.val; omega
  rw [hl, hr]

/-- An index of the output array is in point `t`'s block iff each coordinate is in the block's range on its axis. -/
theorem dense2_mem_blk (t : Fin cfg2.N) (i : S100000x2.Idx) :
    i ∈ ((cfg2.win 2).blk t).view.set ↔ ∀ a : Fin 2, win2_2.index t a * S5000x2.size a ≤ (i a).val ∧ (i a).val < win2_2.index t a * S5000x2.size a + S5000x2.size a := by
  show i ∈ ((View.whole main_v44).slice (win2_2.rect t)).set ↔ _
  rw [View.set_slice_whole, Rect.mem_set_unit]
  exact Iff.rfl

/-- The output's twenty row blocks fill it: row `r` is in the block of point `r / 5000`. -/
theorem dense2_cover (i : S100000x2.Idx) :
    ∃ t : Fin cfg2.N, (cfg2.win 2).flush t = true ∧ i ∈ ((cfg2.win 2).blk t).view.set := by
  have hi0 : (i 0).val < 100000 := (i 0).isLt
  have hi1 : (i 1).val < 2 := (i 1).isLt
  obtain ⟨t, ht⟩ := dense2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [dense2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 2 ≤ (i 1).val ∧ (i 1).val < win2_2.index t (1 : Fin 2) * 2 + 2; omega

/-- Region 2 leaves in its output array the reference's second product, of the hidden activations it finds and the
    second weights. -/
theorem region2_value (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (a4 : (⟨Cert.ReferenceIdeal.S128x2, .f32⟩ : BufTy).Contents (Elt Ideal))
    (h0 : V c main_v43 = Cert.ReferenceIdeal.ReadP.val_main_v48 (F := Ideal) a0 a1 a2 a3)
    (h1 : V c main_arg4 = a4) :
    (dat2 V c).arrAt 2 cfg2.N = Cert.ReferenceIdeal.ReadP.val_main_v49 (F := Ideal) a0 a1 a2 a3 a4 :=
  (dat2 V c).arrAt_eq_of_cover 2 (Cert.ReferenceIdeal.ReadP.val_main_v49 (F := Ideal) a0 a1 a2 a3 a4)
    (fun t _ => dense2_flushed_of V c (Cert.ReferenceIdeal.ReadP.val_main_v48 (F := Ideal) a0 a1 a2 a3) a4
      (Cert.ReferenceIdeal.ReadP.val_main_v49 (F := Ideal) a0 a1 a2 a3 a4)
      (Cert.ReferenceIdeal.ReadP.val_main_v49_apply a0 a1 a2 a3 a4) h0 h1 t) dense2_cover

end Region2

end Cert.KernelIdeal.Bridge

end
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.RegionRelu.lean ====
/-
  Region 1 of the kernel program, the first layer's combination: on each block of 5000 node rows the body stores
  max(agg + h · d + b, 0), where agg is the scattered sum of weighted neighbour rows, h the node's own row of x·W₁, d the
  node's self weight (a column, repeated along the 128 features) and b the bias (a row, repeated along the nodes). The
  twenty blocks tile the 100000 rows, so the output array is that expression of the whole arrays, entry by entry; the
  reference computes the same entry by broadcasts of d and b to the full shape, an addition, and a maximum with zero.
-/
import proofs.«181389_j21397527069336_1_alg».proof.Proof.Gen.KernelIdeal.Frame
import proofs.«181389_j21397527069336_1_alg».proof.Proof.RefRead
import proofs.«181389_j21397527069336_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen

namespace Relu

theorem hz : (![0, 0] : Fin 2 → Nat) = fun _ => 0 := funext fun a => by fin_cases a <;> rfl

/-- The body's stored value at row `p`, feature `q` of a block: max(agg + h · d + b, 0) of the blocks' entries, the
    column `d` read at row `p` and the row `b` at feature `q`. -/
theorem pay_apply (x0 x1 : Vec Ideal S5000x128 .f32) (x2 : Vec Ideal S5000x1 .f32) (x3 : Vec Ideal S1x128 .f32)
    (p : Fin 5000) (q : Fin 128) :
    k1_pay1 x0 x1 x2 x3 (ix2 p q)
      = max (x0 (ix2 p q) + x1 (ix2 p q) * x2 (ix2 p (0 : Fin 1)) + x3 (ix2 (0 : Fin 1) q)) (Ideal.ofBits .f32 0x00000000#32) := by
  unfold k1_pay1
  simp only [shapeCast_self]
  show max (x0 (ix2 p q) + x1 (ix2 p q) * broadcastTo S5000x128 x2 broadcasts_S5000x1_S5000x128 (ix2 p q)
      + broadcastTo S5000x128 x3 broadcasts_S1x128_S5000x128 (ix2 p q)) (Ideal.ofBits .f32 0x00000000#32) = _
  rw [broadcastTo_a1_ab_apply, broadcastTo_1b_ab_apply]

/-- Over the grid: the three row-blocked inputs move with the output block, the bias window stays, and the output's
    block index is the point's number. -/
theorem idx_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

/-- Every one of the twenty row blocks is some point's. -/
theorem idx_onto : ∀ q0 : Fin 20, ∃ t : Fin cfg1.N, win1_4.index t = ![q0.val, 0] :=
  (by decide +kernel : ∀ q0 : Fin 20, ∃ t : Fin grid1.N, win1_4.index t = ![q0.val, 0])

section
variable (V : (c : Dev nD) → (b : Ref sig .tc) → Buf (Elt Ideal) ((c : Thread nD τ).loc b)) (c : Dev nD)

/-- What point `t` writes back is block `t` of any array `G` whose entry at node `r`, feature `q` is
    max(A + H · D + B, 0) of the four input arrays' entries there: row `p` of the block is row `5000 · (block index) + p`
    of every array. -/
theorem flushed_eq (A H G : (⟨S100000x128, .f32⟩ : BufTy).Contents (Elt Ideal)) (D : (⟨S100000, .f32⟩ : BufTy).Contents (Elt Ideal)) (B : (⟨S128, .f32⟩ : BufTy).Contents (Elt Ideal))
    (h0 : V c main_v40 = A) (h1 : V c main_v27 = H)
    (h2 : V c main_v42 = shapeCast _ D shapeCasts_S100000_S100000x1)
    (h3 : V c main_v41 = shapeCast _ B shapeCasts_S128_S1x128)
    (hG : ∀ (r : Fin 100000) (q : Fin 128), G (ix2 r q)
      = max (A (ix2 r q) + H (ix2 r q) * D (ix1 r) + B (ix1 q)) (Ideal.ofBits .f32 0x00000000#32))
    (t : Fin cfg1.N) :
    (dat1 V c).flushed 4 t = ((cfg1.win 4).blk t).view.read (Elt Ideal) G := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e00, e01, e10, e11, e20, e21, e30, e31, e41, e4le⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the node this block row is
  have hr : win1_4.index t (0 : Fin 2) * 5000 + p.val < 100000 := by omega
  generalize hrdef : (⟨win1_4.index t (0 : Fin 2) * 5000 + p.val, hr⟩ : Fin 100000) = r
  have hrv : r.val = win1_4.index t (0 : Fin 2) * 5000 + p.val := by rw [← hrdef]
  have E4 : ((cfg1.win 4).blk t).view.emb (ix2 p q) = (ix2 r q : S100000x128.Idx) := by
    funext a; apply Fin.ext
    match a with
    | ⟨0, _⟩ => show win1_4.index t (0 : Fin 2) * 5000 + 1 * p.val = r.val; omega
    | ⟨1, _⟩ => show win1_4.index t (1 : Fin 2) * 128 + 1 * q.val = q.val; omega
  have E0 : ((cfg1.win 0).blk t).view.emb (ix2 p q) = (ix2 r q : S100000x128.Idx) := by
    funext a; apply Fin.ext
    match a with
    | ⟨0, _⟩ => show win1_0.index t (0 : Fin 2) * 5000 + 1 * p.val = r.val; omega
    | ⟨1, _⟩ => show win1_0.index t (1 : Fin 2) * 128 + 1 * q.val = q.val; omega
  have E1 : ((cfg1.win 1).blk t).view.emb (ix2 p q) = (ix2 r q : S100000x128.Idx) := by
    funext a; apply Fin.ext
    match a with
    | ⟨0, _⟩ => show win1_1.index t (0 : Fin 2) * 5000 + 1 * p.val = r.val; omega
    | ⟨1, _⟩ => show win1_1.index t (1 : Fin 2) * 128 + 1 * q.val = q.val; omega
  have E2 : ((cfg1.win 2).blk t).view.emb (ix2 p (0 : Fin 1)) = (ix2 r (0 : Fin 1) : S100000x1.Idx) := by
    funext a; apply Fin.ext
    match a with
    | ⟨0, _⟩ => show win1_2.index t (0 : Fin 2) * 5000 + 1 * p.val = r.val; omega
    | ⟨1, _⟩ => show win1_2.index t (1 : Fin 2) * 1 + 1 * 0 = 0; omega
  have E3 : ((cfg1.win 3).blk t).view.emb (ix2 (0 : Fin 1) q) = (ix2 (0 : Fin 1) q : S1x128.Idx) := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  -- the four blocks' entries are the whole arrays' entries of node `r`
  have r0 : iblk1 V c 0 t (ix2 p q) = A (ix2 r q) := by
    show V c main_v40 (((cfg1.win 0).blk t).view.emb (ix2 p q)) = _
    rw [h0, E0]
  have r1 : iblk1 V c 1 t (ix2 p q) = H (ix2 r q) := by
    show V c main_v27 (((cfg1.win 1).blk t).view.emb (ix2 p q)) = _
    rw [h1, E1]
  have r2 : iblk1 V c 2 t (ix2 p (0 : Fin 1)) = D (ix1 r) := by
    show V c main_v42 (((cfg1.win 2).blk t).view.emb (ix2 p (0 : Fin 1))) = _
    rw [h2, E2]
    exact shapeCast_a_a1_apply _ _ r 0
  have r3 : iblk1 V c 3 t (ix2 (0 : Fin 1) q) = B (ix1 q) := by
    show V c main_v41 (((cfg1.win 3).blk t).view.emb (ix2 (0 : Fin 1) q)) = _
    rw [h3, E3]
    exact shapeCast_a_1a_apply _ _ 0 q
  show k1_pay1 (iblk1 V c 0 t) (iblk1 V c 1 t) (iblk1 V c 2 t) (iblk1 V c 3 t) (ix2 p q)
    = G (((cfg1.win 4).blk t).view.emb (ix2 p q))
  rw [E4, hG r q]
  refine (pay_apply (iblk1 V c 0 t) (iblk1 V c 1 t) (iblk1 V c 2 t) (iblk1 V c 3 t) p q).trans ?_
  rw [r0, r1, r2, r3]

/-- An index of the output array is in point `t`'s block iff each coordinate is in the block's range. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- The blocks cover the array: node `r` is in the block of point `r / 5000`. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

end

end Relu

/-- The reference's first-layer output at node `r`, feature `q`: its two broadcasts read the self weight at the node
    and the bias at the feature, and its maximum with the zero splat is the maximum with zero. -/
theorem relu_stage_apply (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (r : Fin 100000) (q : Fin 128) :
    Cert.ReferenceIdeal.ReadP.val_main_v48 (F := Ideal) a0 a1 a2 a3 (ix2 r q)
      = max (Cert.ReferenceIdeal.ReadP.val_main_v39 (F := Ideal) a0 a1 a2 (ix2 r q)
          + Cert.ReferenceIdeal.ReadP.val_main_v4 (F := Ideal) a0 a2 (ix2 r q) * Cert.ReferenceIdeal.ReadP.val_main_v40 (F := Ideal) a1 (ix1 r) + a3 (ix1 q))
        (Ideal.ofBits .f32 0x00000000#32) := by
  rw [Cert.ReferenceIdeal.ReadP.val_main_v48_apply, Cert.ReferenceIdeal.ReadP.val_main_v47_apply, Cert.ReferenceIdeal.ReadP.val_main_v44_apply, Cert.ReferenceIdeal.ReadP.val_main_v43_apply,
    Cert.ReferenceIdeal.ReadP.val_main_v42_apply, Cert.ReferenceIdeal.ReadP.val_main_v41_apply, Cert.ReferenceIdeal.ReadP.val_main_v46_apply, Cert.ReferenceIdeal.ReadP.val_main_v45_apply,
    Cert.ReferenceIdeal.ReadP.val_main_call0_v0_apply, Cert.ReferenceIdeal.ReadP.val_main_call0_cst_apply]
  have i1 : Cert.ReferenceIdeal.ReadP.idx_main_v41 (Cert.ReferenceIdeal.ReadP.idx_main_v42 (ix2 r q : Cert.ReferenceIdeal.S100000x128.Idx)) = ix1 r :=
    funext fun a => by match a with | ⟨0, _⟩ => rfl
  have i2 : Cert.ReferenceIdeal.ReadP.idx_main_v45 (Cert.ReferenceIdeal.ReadP.idx_main_v46 (ix2 r q : Cert.ReferenceIdeal.S100000x128.Idx)) = ix1 q :=
    funext fun a => by match a with | ⟨0, _⟩ => rfl
  rw [i1, i2]
  generalize Cert.ReferenceIdeal.ReadP.val_main_v39 (F := Ideal) a0 a1 a2 = A
  generalize Cert.ReferenceIdeal.ReadP.val_main_v4 (F := Ideal) a0 a2 = H
  generalize Cert.ReferenceIdeal.ReadP.val_main_v40 (F := Ideal) a1 = D
  rfl

/-- Region 1's output array after the region: the reference's first-layer output (relu of the scattered sum plus the
    self term plus the bias), given that the region finds its four input arrays at the reference's corresponding values. -/
theorem region1_value (V : (c : Dev nD) → (b : Ref sig .tc) → Buf (Elt Ideal) ((c : Thread nD τ).loc b)) (c : Dev nD) (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal))
    (h0 : V c main_v40 = Cert.ReferenceIdeal.ReadP.val_main_v39 (F := Ideal) a0 a1 a2)
    (h1 : V c main_v27 = Cert.ReferenceIdeal.ReadP.val_main_v4 (F := Ideal) a0 a2)
    (h2 : V c main_v42 = shapeCast _ (Cert.ReferenceIdeal.ReadP.val_main_v40 (F := Ideal) a1) shapeCasts_S100000_S100000x1)
    (h3 : V c main_v41 = shapeCast _ a3 shapeCasts_S128_S1x128) :
    (dat1 V c).arrAt 4 cfg1.N = Cert.ReferenceIdeal.ReadP.val_main_v48 (F := Ideal) a0 a1 a2 a3 :=
  (dat1 V c).arrAt_eq_of_cover 4 _
    (fun t _ => Relu.flushed_eq V c _ _ (Cert.ReferenceIdeal.ReadP.val_main_v48 (F := Ideal) a0 a1 a2 a3) _ _ h0 h1 h2 h3
      (relu_stage_apply a0 a1 a2 a3) t)
    Relu.cover

end Cert.KernelIdeal.Bridge

end
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.RegionLogSoftmax.lean ====
/-
  Region 3 of the kernel program — the second layer's combine step followed by a log-softmax over the two classes —
  writes, into its output array, the reference program's last stage.

  One row of the computation: from the aggregate `A`, the feature `H`, the per-row scale `D` and the bias `B`, the combined
  value of row `r` is `z k = A (r, k) + H (r, k) · D r + B k` for the two columns `k`; its log-softmax at column `q` is
  `(z q − m) − log (∑ k, exp (z k − m))` with `m` the row's maximum (the fold of `max` over the row from −∞). The kernel's
  body computes this on blocks of 5000 rows (the scale as a column repeated along the row, the bias as a row repeated down
  the rows, the row statistics by reductions over axis 1 kept as columns); the reference computes the same expression on the
  whole `[100000, 2]` array. Both are read at an index and meet in `logSoftmaxRow`; the 20 blocks tile the array.
-/
import proofs.«181389_j21397527069336_1_alg».proof.Proof.Gen.KernelIdeal.Frame
import proofs.«181389_j21397527069336_1_alg».proof.Proof.RefRead
import proofs.«181389_j21397527069336_1_alg».proof.Proof.LibLastAxis
import proofs.«181389_j21397527069336_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Bridge.LogSoftmax

open Idealize.ShloMosaic Idealize.ShloMosaic.TcCoe Idealize.SL.Sem Idealize.ShloMosaic.ValueIdx
open Cert.KernelIdeal Cert.KernelIdeal.Gen

/-! ## The log-softmax of one row -/

/-- The value of the f32 word for −∞, the initial value of both programs' row maximum. -/
abbrev negInf : EReal := Ideal.ofBits .f32 0xFF800000#32

/-- The row maximum both programs subtract: the fold of `max` over the row's two entries from −∞, once more
    bounded below by −∞. -/
def rowShift (z : Fin 2 → EReal) : EReal :=
  max negInf ((Finset.univ : Finset (Fin 2)).fold max negInf z)

/-- The log-softmax of a row `z` of two entries, at column `q`: the entry less the row maximum, less the logarithm
    of the sum over the row of the exponentials of the entries less the row maximum. -/
def logSoftmaxRow (z : Fin 2 → EReal) (q : Fin 2) : EReal :=
  (z q - rowShift z) - Ideal.log (∑ k : Fin 2, Ideal.exp (z k - rowShift z))

/-! ## The kernel's payload at an index -/

/-- The combined value the kernel's body forms before its log-softmax, at `(p, k)`: the aggregate plus the feature
    times the row's scale (a column repeated along the row) plus the bias (a row repeated down the rows). -/
theorem combine_apply (x0 x1 : FVec Ideal S5000x2 .f32) (x2 : FVec Ideal S5000x1 .f32) (x3 : FVec Ideal S1x2 .f32)
    (p : Fin 5000) (k : Fin 2) :
    addf (addf (shapeCast S5000x2 x0 shapeCasts_S5000x2_S5000x2)
        (mulf (shapeCast S5000x2 x1 shapeCasts_S5000x2_S5000x2)
          (broadcastTo S5000x2 (shapeCast S5000x1 x2 shapeCasts_S5000x1_S5000x1) broadcasts_S5000x1_S5000x2)))
      (broadcastTo S5000x2 (shapeCast S1x2 x3 shapeCasts_S1x2_S1x2) broadcasts_S1x2_S5000x2) (ix2 p k)
      = x0 (ix2 p k) + x1 (ix2 p k) * x2 (ix2 p (0 : Fin 1)) + x3 (ix2 (0 : Fin 1) k) := by
  rw [shapeCast_self, shapeCast_self, shapeCast_self, shapeCast_self]
  show x0 (ix2 p k) + x1 (ix2 p k) * broadcastTo S5000x2 x2 broadcasts_S5000x1_S5000x2 (ix2 p k)
      + broadcastTo S5000x2 x3 broadcasts_S1x2_S5000x2 (ix2 p k) = _
  rw [broadcastTo_a1_ab_apply x2 broadcasts_S5000x1_S5000x2 p k,
    broadcastTo_1b_ab_apply x3 broadcasts_S1x2_S5000x2 p k]

/-- The kernel's row maximum, kept as a column and repeated along the row, at `(p, k)`: the row's shift. -/
theorem shift_apply (val : FVec Ideal S5000x2 .f32) (p : Fin 5000) (k : Fin 2) :
    broadcastTo S5000x2
        (shapeCast S5000x1
          (maximumf (broadcast S5000 (Scalar.ofBits (F := Ideal) .f32 0xFF800000#32))
            (multiReduction .maximumf [1] S5000 val 0xFF800000#32 reduces_S5000x2_S5000 (.inl rfl) rfl))
          shapeCasts_S5000_S5000x1)
        broadcasts_S5000x1_S5000x2 (ix2 p k)
      = rowShift fun j => val (ix2 p j) := by
  rw [broadcastTo_a1_ab_apply _ broadcasts_S5000x1_S5000x2 p k,
    shapeCast_a_a1_apply _ shapeCasts_S5000_S5000x1 p (0 : Fin 1)]
  show max negInf (multiReduction (F := Ideal) .maximumf [1] S5000 val 0xFF800000#32 reduces_S5000x2_S5000 (.inl rfl) rfl (ix1 p)) = _
  exact congrArg (max negInf) (Cert.LibLastAxis.rowMax_apply val reduces_S5000x2_S5000 (.inl rfl) rfl p)

/-- The kernel's log-softmax steps on a `[5000, 2]` vector `val`, at `(p, q)`: the log-softmax of row `p` of `val`. -/
theorem logSoftmax_steps_apply (val sh : FVec Ideal S5000x2 .f32)
    (hsh : ∀ (p : Fin 5000) (k : Fin 2), sh (ix2 p k) = rowShift fun j => val (ix2 p j)) (p : Fin 5000) (q : Fin 2) :
    subf (subf val sh)
        (broadcastTo S5000x2
          (log (shapeCast S5000x1
            (multiReduction .add [1] S5000 (exp (subf val sh)) 0x00000000#32 reduces_S5000x2_S5000 (.inl rfl) rfl)
            shapeCasts_S5000_S5000x1))
          broadcasts_S5000x1_S5000x2) (ix2 p q)
      = logSoftmaxRow (fun j => val (ix2 p j)) q := by
  rw [subf_apply, broadcastTo_a1_ab_apply _ broadcasts_S5000x1_S5000x2 p q]
  show subf val sh (ix2 p q) - Ideal.log (shapeCast S5000x1
      (multiReduction (F := Ideal) .add [1] S5000 (exp (subf val sh)) 0x00000000#32 reduces_S5000x2_S5000 (.inl rfl) rfl)
      shapeCasts_S5000_S5000x1 (ix2 p (0 : Fin 1))) = _
  rw [shapeCast_a_a1_apply _ shapeCasts_S5000_S5000x1 p (0 : Fin 1),
    Cert.LibLastAxis.rowSum_apply (exp (subf val sh)) reduces_S5000x2_S5000 (.inl rfl) rfl p]
  unfold logSoftmaxRow
  refine congrArg₂ (· - ·) ?_ (congrArg Ideal.log (Finset.sum_congr rfl fun j _ => ?_))
  · show val (ix2 p q) - sh (ix2 p q) = _
    rw [hsh]
  · show Ideal.exp (val (ix2 p j) - sh (ix2 p j)) = _
    rw [hsh]

/-- THE PAYLOAD AT AN INDEX: the body's stored value at `(p, q)` is the log-softmax of row `p` of the combined
    value (aggregate + feature × scale + bias), in the four loaded blocks' entries. -/
theorem pay_apply (x0 x1 : FVec Ideal S5000x2 .f32) (x2 : FVec Ideal S5000x1 .f32) (x3 : FVec Ideal S1x2 .f32)
    (p : Fin 5000) (q : Fin 2) :
    k3_pay1 (F := Ideal) x0 x1 x2 x3 (ix2 p q)
      = logSoftmaxRow (fun j => x0 (ix2 p j) + x1 (ix2 p j) * x2 (ix2 p (0 : Fin 1)) + x3 (ix2 (0 : Fin 1) j)) q := by
  unfold k3_pay1
  refine (logSoftmax_steps_apply _ _ (fun p' k => shift_apply _ p' k) p q).trans ?_
  exact congrArg (fun z => logSoftmaxRow z q) (funext fun j => combine_apply x0 x1 x2 x3 p j)

/-! ## The reference's last stage at an index -/

/-- The host's reduce with a maximum body over axis 1 of an `[a, b]` array, read at row `p`: the fold of `max`,
    from the initial value's one element, over the row's entries. -/
theorem hostRowMax_apply {a b : ℕ} (x : FVec Ideal ⟨2, ![a, b]⟩ .f32) (init : FVec Ideal ⟨0, ![]⟩ .f32)
    (h' : (⟨2, ![a, b]⟩ : Shape).ReducesTo [1] ⟨1, ![a]⟩) (hred : (⟨2, ![a, b]⟩ : Shape).Reduces [1] ⟨1, ![a]⟩)
    (hu : 0 < (⟨0, ![]⟩ : Shape).numel) (p : Fin a) :
    Host.reduce (FloatOps.maximumf (F := Ideal) (φ := .f32)) x init h' hu (ix1 p)
      = (Finset.univ : Finset (Fin b)).fold max (init (Shape.Idx.first hu)) (fun k => x (ix2 p k)) := by
  rw [Host.reduce_eq_fold_single FloatOps.maximumf x init h' hred hu]
  exact congrArg (fun f => Finset.fold max (init (Shape.Idx.first hu)) f (Finset.univ : Finset (Fin b)))
    (funext fun k => congrArg x (Cert.LibLastAxis.lift_row hred p k))

/-- The reference's row maximum, kept as a column and repeated along the row, at `(r, k)`: the shift of row `r` of
    the combined value (operation 92). -/
theorem ref_shift_apply (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (a4 : (⟨Cert.ReferenceIdeal.S128x2, .f32⟩ : BufTy).Contents (Elt Ideal)) (a5 : (⟨Cert.ReferenceIdeal.S2, .f32⟩ : BufTy).Contents (Elt Ideal)) (r : Fin 100000) (k : Fin 2) :
    Cert.ReferenceIdeal.ReadP.val_main_call1_v4 (F := Ideal) a0 a1 a2 a3 a4 a5 (ix2 r k)
      = rowShift fun j => Cert.ReferenceIdeal.ReadP.val_main_v92 (F := Ideal) a0 a1 a2 a3 a4 a5 (ix2 r j) := by
  rw [Cert.ReferenceIdeal.ReadP.val_main_call1_v4_apply, Cert.ReferenceIdeal.ReadP.val_main_call1_v3_apply, Cert.ReferenceIdeal.ReadP.val_main_call1_v2_apply,
    Cert.ReferenceIdeal.ReadP.val_main_call1_v1_apply, Cert.ReferenceIdeal.ReadP.val_main_call1_cst_0_apply]
  have hidx : Cert.ReferenceIdeal.ReadP.idx_main_call1_v3 (Cert.ReferenceIdeal.ReadP.idx_main_call1_v4 (ix2 r k)) = ix1 r := by
    funext a; match a with | ⟨0, _⟩ => rfl
  rw [hidx]
  unfold Cert.ReferenceIdeal.ReadP.val_main_call1_v0
  generalize Cert.ReferenceIdeal.ReadP.val_main_v92 (F := Ideal) a0 a1 a2 a3 a4 a5 = y
  refine (congrArg (max negInf) (hostRowMax_apply y _ _ (by decide) _ r)).trans ?_
  rfl

/-- The combined value the reference forms before its log-softmax (operation 92), at `(r, j)`: the aggregate plus
    the feature times the row's scale plus the bias. -/
theorem ref_combine_apply (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (a4 : (⟨Cert.ReferenceIdeal.S128x2, .f32⟩ : BufTy).Contents (Elt Ideal)) (a5 : (⟨Cert.ReferenceIdeal.S2, .f32⟩ : BufTy).Contents (Elt Ideal)) (r : Fin 100000) (j : Fin 2) :
    Cert.ReferenceIdeal.ReadP.val_main_v92 (F := Ideal) a0 a1 a2 a3 a4 a5 (ix2 r j)
      = Cert.ReferenceIdeal.ReadP.val_main_v84 (F := Ideal) a0 a1 a2 a3 a4 (ix2 r j)
        + Cert.ReferenceIdeal.ReadP.val_main_v49 (F := Ideal) a0 a1 a2 a3 a4 (ix2 r j) * Cert.ReferenceIdeal.ReadP.val_main_v85 (F := Ideal) a1 (ix1 r)
        + a5 (ix1 j) := by
  rw [Cert.ReferenceIdeal.ReadP.val_main_v92_apply, Cert.ReferenceIdeal.ReadP.val_main_v89_apply, Cert.ReferenceIdeal.ReadP.val_main_v88_apply, Cert.ReferenceIdeal.ReadP.val_main_v87_apply,
    Cert.ReferenceIdeal.ReadP.val_main_v86_apply, Cert.ReferenceIdeal.ReadP.val_main_v91_apply, Cert.ReferenceIdeal.ReadP.val_main_v90_apply]
  have e1 : Cert.ReferenceIdeal.ReadP.idx_main_v86 (Cert.ReferenceIdeal.ReadP.idx_main_v87 (ix2 r j)) = ix1 r := by
    funext a; match a with | ⟨0, _⟩ => rfl
  have e2 : Cert.ReferenceIdeal.ReadP.idx_main_v90 (Cert.ReferenceIdeal.ReadP.idx_main_v91 (ix2 r j)) = ix1 j := by
    funext a; match a with | ⟨0, _⟩ => rfl
  rw [e1, e2]
  rfl

/-- THE REFERENCE'S LAST STAGE AT AN INDEX: operation 93 at `(r, q)` is the log-softmax of row `r` of the combined
    value (operation 92). -/
theorem ref_apply (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (a4 : (⟨Cert.ReferenceIdeal.S128x2, .f32⟩ : BufTy).Contents (Elt Ideal)) (a5 : (⟨Cert.ReferenceIdeal.S2, .f32⟩ : BufTy).Contents (Elt Ideal)) (r : Fin 100000) (q : Fin 2) :
    Cert.ReferenceIdeal.ReadP.val_main_v93 (F := Ideal) a0 a1 a2 a3 a4 a5 (ix2 r q)
      = logSoftmaxRow (fun j => Cert.ReferenceIdeal.ReadP.val_main_v92 (F := Ideal) a0 a1 a2 a3 a4 a5 (ix2 r j)) q := by
  have h5 : ∀ k : Fin 2, Cert.ReferenceIdeal.ReadP.val_main_call1_v5 (F := Ideal) a0 a1 a2 a3 a4 a5 (ix2 r k)
      = Cert.ReferenceIdeal.ReadP.val_main_v92 (F := Ideal) a0 a1 a2 a3 a4 a5 (ix2 r k)
        - rowShift fun j => Cert.ReferenceIdeal.ReadP.val_main_v92 (F := Ideal) a0 a1 a2 a3 a4 a5 (ix2 r j) := fun k => by
    rw [Cert.ReferenceIdeal.ReadP.val_main_call1_v5_apply, ref_shift_apply]; rfl
  rw [Cert.ReferenceIdeal.ReadP.val_main_v93_apply, Cert.ReferenceIdeal.ReadP.val_main_call1_v10_apply, Cert.ReferenceIdeal.ReadP.val_main_call1_v9_apply,
    Cert.ReferenceIdeal.ReadP.val_main_call1_v8_apply, Cert.ReferenceIdeal.ReadP.val_main_call1_v7_apply, Cert.ReferenceIdeal.ReadP.val_main_call1_cst_1_apply]
  have hidx : ∀ k : Fin 2, Cert.ReferenceIdeal.ReadP.idx_main_call1_v7
      (Cert.ReferenceIdeal.ReadP.idx_main_call1_v8 (Cert.ReferenceIdeal.ReadP.idx_main_call1_v10 (ix2 r q))) k = ix2 r k := fun k => by
    funext a; match a with | ⟨0, _⟩ => rfl | ⟨1, _⟩ => rfl
  rw [Ideal.subf_def, Ideal.hostUnary_log_def, Ideal.ofBits_def, Ideal.ofBits_zero_f32, zero_add, h5 q]
  unfold logSoftmaxRow
  refine congrArg (HSub.hSub _) (congrArg Ideal.log (Finset.sum_congr rfl fun k _ => ?_))
  rw [hidx k, Cert.ReferenceIdeal.ReadP.val_main_call1_v6_apply, h5 k, Ideal.hostUnary_exp_def]

/-- THE REFERENCE'S LAST STAGE IN ITS FOUR INPUTS: operation 93 at `(r, q)` is the log-softmax of the row
    `k ↦ aggregate (r, k) + feature (r, k) · scale r + bias k`. -/
theorem ref_stage_apply (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (a4 : (⟨Cert.ReferenceIdeal.S128x2, .f32⟩ : BufTy).Contents (Elt Ideal)) (a5 : (⟨Cert.ReferenceIdeal.S2, .f32⟩ : BufTy).Contents (Elt Ideal)) (r : Fin 100000) (q : Fin 2) :
    Cert.ReferenceIdeal.ReadP.val_main_v93 (F := Ideal) a0 a1 a2 a3 a4 a5 (ix2 r q)
      = logSoftmaxRow (fun k => Cert.ReferenceIdeal.ReadP.val_main_v84 (F := Ideal) a0 a1 a2 a3 a4 (ix2 r k)
          + Cert.ReferenceIdeal.ReadP.val_main_v49 (F := Ideal) a0 a1 a2 a3 a4 (ix2 r k) * Cert.ReferenceIdeal.ReadP.val_main_v85 (F := Ideal) a1 (ix1 r)
          + a5 (ix1 k)) q :=
  (ref_apply a0 a1 a2 a3 a4 a5 r q).trans
    (congrArg (fun z => logSoftmaxRow z q) (funext fun k => ref_combine_apply a0 a1 a2 a3 a4 a5 r k))

/-! ## From blocks to the array -/

variable (V : (c : Dev nD) → (b : Ref sig .tc) → Buf (Elt Ideal) ((c : Thread nD τ).loc b)) (c : Dev nD)

/-- The body's accesses start at the buffers' origins. -/
theorem zero_offsets : (![0, 0] : Fin 2 → Nat) = fun _ => 0 := funext fun a => by fin_cases a <;> rfl

/-- The printed index maps, decided over the grid: the aggregate's, the feature's and the scale's row block is the
    output's, the bias is the one whole block, no window moves along the columns, and the output's row block stays
    below 20. -/
theorem index_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 19 :=
  (by decide +kernel : ∀ t : Fin grid3.N, _)

/-- Every row block of the output is some point's. -/
theorem index_onto : ∀ b : Fin 20, ∃ t : Fin cfg3.N, win3_4.index t = ![b.val, 0] :=
  (by decide +kernel : ∀ b : Fin 20, ∃ t : Fin grid3.N, win3_4.index t = ![b.val, 0])

/-- The aggregate's block at point `t`, at `(p, k)`: the array's entry in row `r` = (the output's row block) × 5000 + p. -/
theorem agg_block (t : Fin cfg3.N) (p : Fin 5000) (k : Fin 2) (r : Fin 100000)
    (hr : r.val = win3_4.index t (0 : Fin 2) * 5000 + p.val) :
    (iblk3 V c 0 t : Vec Ideal S5000x2 .f32) (ix2 p k) = V c main_v57 (ix2 r k) := by
  obtain ⟨e0, e1, -⟩ := index_facts t
  show V c main_v57 (((cfg3.win 0).blk t).view.emb (ix2 p k)) = V c main_v57 (ix2 r k)
  refine congrArg (V c main_v57) (funext fun a => Fin.ext ?_)
  match a with
  | ⟨0, _⟩ => show win3_0.index t (0 : Fin 2) * 5000 + 1 * p.val = r.val; omega
  | ⟨1, _⟩ => show win3_0.index t (1 : Fin 2) * 2 + 1 * k.val = k.val; omega

/-- The feature's block at point `t`, at `(p, k)`. -/
theorem feat_block (t : Fin cfg3.N) (p : Fin 5000) (k : Fin 2) (r : Fin 100000)
    (hr : r.val = win3_4.index t (0 : Fin 2) * 5000 + p.val) :
    (iblk3 V c 1 t : Vec Ideal S5000x2 .f32) (ix2 p k) = V c main_v44 (ix2 r k) := by
  obtain ⟨-, -, e2, e3, -⟩ := index_facts t
  show V c main_v44 (((cfg3.win 1).blk t).view.emb (ix2 p k)) = V c main_v44 (ix2 r k)
  refine congrArg (V c main_v44) (funext fun a => Fin.ext ?_)
  match a with
  | ⟨0, _⟩ => show win3_1.index t (0 : Fin 2) * 5000 + 1 * p.val = r.val; omega
  | ⟨1, _⟩ => show win3_1.index t (1 : Fin 2) * 2 + 1 * k.val = k.val; omega

/-- The scale's block (a column) at point `t`, at `(p, 0)`. -/
theorem scale_block (t : Fin cfg3.N) (p : Fin 5000) (r : Fin 100000)
    (hr : r.val = win3_4.index t (0 : Fin 2) * 5000 + p.val) :
    (iblk3 V c 2 t : Vec Ideal S5000x1 .f32) (ix2 p (0 : Fin 1)) = V c main_v59 (ix2 r (0 : Fin 1)) := by
  obtain ⟨-, -, -, -, e4, e5, -⟩ := index_facts t
  show V c main_v59 (((cfg3.win 2).blk t).view.emb (ix2 p (0 : Fin 1))) = V c main_v59 (ix2 r (0 : Fin 1))
  refine congrArg (V c main_v59) (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

/-- The bias's block (the whole row) at any point, at `(0, k)`. -/
theorem bias_block (t : Fin cfg3.N) (k : Fin 2) :
    (iblk3 V c 3 t : Vec Ideal S1x2 .f32) (ix2 (0 : Fin 1) k) = V c main_v58 (ix2 (0 : Fin 1) k) := by
  obtain ⟨-, -, -, -, -, -, e6, e7, -⟩ := index_facts t
  show V c main_v58 (((cfg3.win 3).blk t).view.emb (ix2 (0 : Fin 1) k)) = V c main_v58 (ix2 (0 : Fin 1) k)
  refine congrArg (V c main_v58) (funext fun a => Fin.ext ?_)
  match a with
  | ⟨0, _⟩ => show win3_3.index t (0 : Fin 2) * 1 + 1 * 0 = 0; omega
  | ⟨1, _⟩ => show win3_3.index t (1 : Fin 2) * 2 + 1 * k.val = k.val; omega

/-- The output's block at point `t` of any array `G`, at `(p, q)`: `G`'s entry in row `r` = (the row block) × 5000 + p. -/
theorem out_block_read (G : (⟨S100000x2, .f32⟩ : BufTy).Contents (Elt Ideal)) (t : Fin cfg3.N) (p : Fin 5000)
    (q : Fin 2) (r : Fin 100000) (hr : r.val = win3_4.index t (0 : Fin 2) * 5000 + p.val) :
    ((cfg3.win 4).blk t).view.read (Elt Ideal) G (ix2 p q) = G (ix2 r q) := by
  obtain ⟨-, -, -, -, -, -, -, -, e8, -⟩ := index_facts t
  show G (((cfg3.win 4).blk t).view.emb (ix2 p q)) = G (ix2 r q)
  refine congrArg G (funext fun a => Fin.ext ?_)
  match a with
  | ⟨0, _⟩ => show win3_4.index t (0 : Fin 2) * 5000 + 1 * p.val = r.val; omega
  | ⟨1, _⟩ => show win3_4.index t (1 : Fin 2) * 2 + 1 * q.val = q.val; omega

/-- The output window writes back its whole buffer: what is written at `(p, q)` is the buffer's entry there. -/
theorem out_block_cut (X : FVec Ideal S5000x2 .f32) (t : Fin cfg3.N) (p : Fin 5000) (q : Fin 2) :
    (cfg3.win 4).cut (grid3.coords t) X (ix2 p q) = X (ix2 p q) :=
  congrArg X (funext fun a => Fin.ext rfl)

/-- WHAT POINT `t` WRITES BACK is block `t` of `G`, for any array `G` that is, row by row, the log-softmax of the
    combined value of the four arrays the region reads: the aggregate `A`, the feature `H`, the scale `D` (held as a
    column) and the bias `B` (held as a row). -/
theorem flushed_eq (G A H : (⟨S100000x2, .f32⟩ : BufTy).Contents (Elt Ideal)) (D : (⟨S100000, .f32⟩ : BufTy).Contents (Elt Ideal))
    (B : (⟨S2, .f32⟩ : BufTy).Contents (Elt Ideal))
    (h0 : V c main_v57 = A) (h1 : V c main_v44 = H)
    (h2 : V c main_v59 = shapeCast _ D shapeCasts_S100000_S100000x1)
    (h3 : V c main_v58 = shapeCast _ B shapeCasts_S2_S1x2)
    (hG : ∀ (r : Fin 100000) (q : Fin 2),
      G (ix2 r q) = logSoftmaxRow (fun k => A (ix2 r k) + H (ix2 r k) * D (ix1 r) + B (ix1 k)) q)
    (t : Fin cfg3.N) :
    (dat3 V c).flushed 4 t = ((cfg3.win 4).blk t).view.read (Elt Ideal) G := by
  show (cfg3.win 4).cut (grid3.coords t) ((dat3 V c).after 4 t) = _
  rw [after3_4]
  unfold out3_4
  rw [View.canon_unit_zero zero_offsets]
  simp only [View.ld_unit_zero (S := S5000x2) zero_offsets, View.ld_unit_zero (S := S5000x1) zero_offsets,
    View.ld_unit_zero (S := S1x2) zero_offsets]
  obtain ⟨-, -, -, -, -, -, -, -, -, e9⟩ := index_facts t
  funext j
  obtain ⟨p, q, rfl⟩ : ∃ (p : Fin 5000) (q : Fin 2), j = ix2 p q := ⟨j 0, j 1, eq_ix2 j⟩
  have hp : p.val < 5000 := p.isLt
  have hr : win3_4.index t (0 : Fin 2) * 5000 + p.val < 100000 := by omega
  obtain ⟨r, hrv⟩ : ∃ r : Fin 100000, r.val = win3_4.index t (0 : Fin 2) * 5000 + p.val := ⟨⟨_, hr⟩, rfl⟩
  refine (out_block_cut _ t p q).trans ?_
  refine Eq.trans ?_ (out_block_read G t p q r hrv).symm
  rw [hG]
  refine (pay_apply (iblk3 V c 0 t) (iblk3 V c 1 t) (iblk3 V c 2 t) (iblk3 V c 3 t) p q).trans ?_
  refine congrArg (fun z => logSoftmaxRow z q) (funext fun k => ?_)
  rw [agg_block V c t p k r hrv, feat_block V c t p k r hrv, scale_block V c t p r hrv, bias_block V c t k,
    h0, h1, h2, h3, shapeCast_a_a1_apply, shapeCast_a_1a_apply]

/-- An index of the output array is in point `t`'s block iff each coordinate is in the block's range on its axis. -/
theorem mem_blk (t : Fin cfg3.N) (i : S100000x2.Idx) :
    i ∈ ((cfg3.win 4).blk t).view.set ↔ ∀ a : Fin 2, win3_4.index t a * S5000x2.size a ≤ (i a).val
      ∧ (i a).val < win3_4.index t a * S5000x2.size a + S5000x2.size a := by
  show i ∈ ((View.whole main_v60).slice (win3_4.rect t)).set ↔ _
  rw [View.set_slice_whole, Rect.mem_set_unit]
  exact Iff.rfl

/-- Every index of the output array is in some point's block: row `r` is in the block of the point whose row block
    is `r / 5000`. -/
theorem cover (i : S100000x2.Idx) :
    ∃ t : Fin cfg3.N, (cfg3.win 4).flush t = true ∧ i ∈ ((cfg3.win 4).blk t).view.set := by
  have hi0 : (i 0).val < 100000 := (i 0).isLt
  have hi1 : (i 1).val < 2 := (i 1).isLt
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 2 ≤ (i 1).val ∧ (i 1).val < win3_4.index t (1 : Fin 2) * 2 + 2
    omega

end Cert.KernelIdeal.Bridge.LogSoftmax

namespace Cert.KernelIdeal.Bridge

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b)) (c : Dev nD)

/-- REGION 3's OUTPUT ARRAY after the region is the reference's last stage, when the four arrays the region reads hold
    the reference's stages they stand for: every point writes back its block of that stage, and the blocks cover the
    array. -/
theorem region3_value (a0 : (⟨Cert.ReferenceIdeal.S100000x4, .f32⟩ : BufTy).Contents (Elt Ideal)) (a1 : (⟨Cert.ReferenceIdeal.S2x1600000, .i32⟩ : BufTy).Contents (Elt Ideal)) (a2 : (⟨Cert.ReferenceIdeal.S4x128, .f32⟩ : BufTy).Contents (Elt Ideal)) (a3 : (⟨Cert.ReferenceIdeal.S128, .f32⟩ : BufTy).Contents (Elt Ideal)) (a4 : (⟨Cert.ReferenceIdeal.S128x2, .f32⟩ : BufTy).Contents (Elt Ideal)) (a5 : (⟨Cert.ReferenceIdeal.S2, .f32⟩ : BufTy).Contents (Elt Ideal))
    (h0 : V c main_v57 = Cert.ReferenceIdeal.ReadP.val_main_v84 (F := Ideal) a0 a1 a2 a3 a4)
    (h1 : V c main_v44 = Cert.ReferenceIdeal.ReadP.val_main_v49 (F := Ideal) a0 a1 a2 a3 a4)
    (h2 : V c main_v59 = shapeCast _ (Cert.ReferenceIdeal.ReadP.val_main_v85 (F := Ideal) a1) shapeCasts_S100000_S100000x1)
    (h3 : V c main_v58 = shapeCast _ a5 shapeCasts_S2_S1x2) :
    (dat3 V c).arrAt 4 cfg3.N = Cert.ReferenceIdeal.ReadP.val_main_v93 (F := Ideal) a0 a1 a2 a3 a4 a5 :=
  (dat3 V c).arrAt_eq_of_cover 4 (Cert.ReferenceIdeal.ReadP.val_main_v93 (F := Ideal) a0 a1 a2 a3 a4 a5)
    (fun t _ => LogSoftmax.flushed_eq V c (Cert.ReferenceIdeal.ReadP.val_main_v93 (F := Ideal) a0 a1 a2 a3 a4 a5)
      (Cert.ReferenceIdeal.ReadP.val_main_v84 (F := Ideal) a0 a1 a2 a3 a4) (Cert.ReferenceIdeal.ReadP.val_main_v49 (F := Ideal) a0 a1 a2 a3 a4)
      (Cert.ReferenceIdeal.ReadP.val_main_v85 (F := Ideal) a1) a5 h0 h1 h2 h3 (LogSoftmax.ref_stage_apply a0 a1 a2 a3 a4 a5) t)
    LogSoftmax.cover

end Cert.KernelIdeal.Bridge

end
-- ==== Proof.KernelValue.lean ====
/-
  The kernel program's result as a function of the argument arrays. Its @main is three stretches of host operations
  around four blocked regions. Walking the buffer contents from the launch memory through each segment boundary, every
  intermediate is named as the stage of the reference program that computes the same quantity from the same arguments —
  so the two programs' shared host operations (the gathers and scatter-adds over the edges) are never opened: they are
  the same functions applied to equal operands — and the last boundary has the result buffer at the reference's result.
-/
import proofs.«181389_j21397527069336_1_alg».proof.Proof.Gen.KernelIdeal.Frame
import proofs.«181389_j21397527069336_1_alg».proof.Proof.RefRead
import proofs.«181389_j21397527069336_1_alg».proof.Proof.RegionDense
import proofs.«181389_j21397527069336_1_alg».proof.Proof.RegionRelu
import proofs.«181389_j21397527069336_1_alg».proof.Proof.RegionLogSoftmax

set_option maxRecDepth 16384

noncomputable section

namespace Cert.KernelIdeal.Bridge

open Idealize.ShloMosaic Idealize.ShloMosaic.TcCoe Idealize.SL.Sem Idealize.ShloMosaic.StableHlo
open Cert.KernelIdeal Cert.KernelIdeal.Gen

/-! ## The program's buffers at each segment boundary, as the reference's stages of the argument arrays

`W1` … `W7` are the buffer contents after each stretch of host operations and each region. A buffer no later segment
writes keeps its contents; a host operation's result is its function of its operands; a region's output array is what
its blocks' write-backs leave (the region lemmas). Read this way, every intermediate the kernel program computes is the
value the reference program computes at the corresponding operation: the edge endpoints, the inverse square root of the
degrees, the edge weights, then per layer the dense product, the scattered sum of weighted neighbour rows and the
combination with the self term and the bias. -/

variable (m : (ℓ : Loc nD τ sig) → Buf (Elt Ideal) ℓ) (ρ : Dev nD → PrngReg) (c : Dev nD)

/-! ### After the first stretch of host operations -/

theorem W1_arg0 : W1 m ρ c (Proc.devRef .tc main_arg0) = m ((c : Thread nD τ).loc main_arg0) := by
  dsimp only [W1, hostOps0]; after_results_simp <;> rfl
theorem W1_arg2 : W1 m ρ c (Proc.devRef .tc main_arg2) = m ((c : Thread nD τ).loc main_arg2) := by
  dsimp only [W1, hostOps0]; after_results_simp <;> rfl
theorem W1_arg3 : W1 m ρ c (Proc.devRef .tc main_arg3) = m ((c : Thread nD τ).loc main_arg3) := by
  dsimp only [W1, hostOps0]; after_results_simp <;> rfl
theorem W1_arg4 : W1 m ρ c (Proc.devRef .tc main_arg4) = m ((c : Thread nD τ).loc main_arg4) := by
  dsimp only [W1, hostOps0]; after_results_simp <;> rfl
theorem W1_arg5 : W1 m ρ c (Proc.devRef .tc main_arg5) = m ((c : Thread nD τ).loc main_arg5) := by
  dsimp only [W1, hostOps0]; after_results_simp <;> rfl
/-- The edges' source endpoints. -/
theorem W1_v1 : W1 m ρ c (Proc.devRef .tc main_v1) = Cert.ReferenceIdeal.ReadP.val_main_v1 (F := Ideal) (m ((c : Thread nD τ).loc main_arg1)) := by
  dsimp only [W1, hostOps0]; after_results_simp <;> rfl
/-- The edges' target endpoints. -/
theorem W1_v3 : W1 m ρ c (Proc.devRef .tc main_v3) = Cert.ReferenceIdeal.ReadP.val_main_v3 (F := Ideal) (m ((c : Thread nD τ).loc main_arg1)) := by
  dsimp only [W1, hostOps0]; after_results_simp <;> rfl
/-- The squared inverse square root of the degrees (the self term's weight). -/
theorem W1_v11 : W1 m ρ c (Proc.devRef .tc main_v11) = Cert.ReferenceIdeal.ReadP.val_main_v40 (F := Ideal) (m ((c : Thread nD τ).loc main_arg1)) := by
  dsimp only [W1, hostOps0]; after_results_simp <;> rfl
/-- The edge weights: the product of the two endpoints' inverse square roots of the degree. -/
theorem W1_v26 : W1 m ρ c (Proc.devRef .tc main_v26) = Cert.ReferenceIdeal.ReadP.val_main_v26 (F := Ideal) (m ((c : Thread nD τ).loc main_arg1)) := by
  dsimp only [W1, hostOps0]; after_results_simp <;> rfl

/-! ### After the first dense product (region 0) -/

theorem W2_v1 : W2 m ρ c (Proc.devRef .tc main_v1) = Cert.ReferenceIdeal.ReadP.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.ReadP.val_main_v3 (F := Ideal) (m ((c : Thread nD τ).loc main_arg1)) :=
  (W2_of_ne m ρ c main_v3 (by decide)).trans (W1_v3 m ρ c)
theorem W2_v11 : W2 m ρ c (Proc.devRef .tc main_v11) = Cert.ReferenceIdeal.ReadP.val_main_v40 (F := Ideal) (m ((c : Thread nD τ).loc main_arg1)) :=
  (W2_of_ne m ρ c main_v11 (by decide)).trans (W1_v11 m ρ c)
theorem W2_v26 : W2 m ρ c (Proc.devRef .tc main_v26) = Cert.ReferenceIdeal.ReadP.val_main_v26 (F := Ideal) (m ((c : Thread nD τ).loc main_arg1)) :=
  (W2_of_ne m ρ c main_v26 (by decide)).trans (W1_v26 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
/-- The first layer's dense product x·W₁. -/
theorem W2_v27 : W2 m ρ c (Proc.devRef .tc main_v27) = Cert.ReferenceIdeal.ReadP.val_main_v4 (F := Ideal) (m ((c : Thread nD τ).loc main_arg0)) (m ((c : Thread nD τ).loc main_arg2)) :=
  (W2_arr m ρ c 2).trans (region0_value (V1 m ρ) c _ _ (W1_arg0 m ρ c) (W1_arg2 m ρ c))

/-! ### After the second stretch of host operations -/

theorem W3_v1 : W3 m ρ c (Proc.devRef .tc main_v1) = Cert.ReferenceIdeal.ReadP.val_main_v1 (F := Ideal) (m ((c : Thread nD τ).loc main_arg1)) := by
  dsimp only [W3, hostOps1]; after_results_simp; exact W2_v1 m ρ c
theorem W3_v3 : W3 m ρ c (Proc.devRef .tc main_v3) = Cert.ReferenceIdeal.ReadP.val_main_v3 (F := Ideal) (m ((c : Thread nD τ).loc main_arg1)) := by
  dsimp only [W3, hostOps1]; after_results_simp; exact W2_v3 m ρ c
theorem W3_v11 : W3 m ρ c (Proc.devRef .tc main_v11) = Cert.ReferenceIdeal.ReadP.val_main_v40 (F := Ideal) (m ((c : Thread nD τ).loc main_arg1)) := by
  dsimp only [W3, hostOps1]; after_results_simp; exact W2_v11 m ρ c
theorem W3_v26 : W3 m ρ c (Proc.devRef .tc main_v26) = Cert.ReferenceIdeal.ReadP.val_main_v26 (F := Ideal) (m ((c : Thread nD τ).loc main_arg1)) := by
  dsimp only [W3, hostOps1]; after_results_simp; exact W2_v26 m ρ c
theorem W3_arg4 : W3 m ρ c (Proc.devRef .tc main_arg4) = m ((c : Thread nD τ).loc main_arg4) := by
  dsimp only [W3, hostOps1]; after_results_simp; exact W2_arg4 m ρ c
theorem W3_arg5 : W3 m ρ c (Proc.devRef .tc main_arg5) = m ((c : Thread nD τ).loc main_arg5) := by
  dsimp only [W3, hostOps1]; after_results_simp; exact W2_arg5 m ρ c
theorem W3_v27 : W3 m ρ c (Proc.devRef .tc main_v27) = Cert.ReferenceIdeal.ReadP.val_main_v4 (F := Ideal) (m ((c : Thread nD τ).loc main_arg0)) (m ((c : Thread nD τ).loc main_arg2)) := by
  dsimp only [W3, hostOps1]; after_results_simp; exact W2_v27 m ρ c
/-- The first layer's scattered sum: each node's sum over its incoming edges of the weighted source rows of x·W₁. -/
theorem W3_v40 : W3 m ρ c (Proc.devRef .tc main_v40) = Cert.ReferenceIdeal.ReadP.val_main_v39 (F := Ideal) (m ((c : Thread nD τ).loc main_arg0)) (m ((c : Thread nD τ).loc main_arg1)) (m ((c : Thread nD τ).loc main_arg2)) := by
  dsimp only [W3, hostOps1]; after_results_simp
  rw [W2_v1 m ρ c, W2_v3 m ρ c, W2_v26 m ρ c, W2_v27 m ρ c]
  rfl
/-- The first bias as a one-row matrix. -/
theorem W3_v41 : W3 m ρ c (Proc.devRef .tc main_v41) = shapeCast _ (m ((c : Thread nD τ).loc main_arg3)) shapeCasts_S128_S1x128 := by
  dsimp only [W3, hostOps1]; after_results_simp
  rw [W2_arg3 m ρ c]
  rfl
/-- The self term's weight as a one-column matrix. -/
theorem W3_v42 : W3 m ρ c (Proc.devRef .tc main_v42) = shapeCast _ (Cert.ReferenceIdeal.ReadP.val_main_v40 (F := Ideal) (m ((c : Thread nD τ).loc main_arg1))) shapeCasts_S100000_S100000x1 := by
  dsimp only [W3, hostOps1]; after_results_simp
  rw [W2_v11 m ρ c]
  rfl

/-! ### After the first combination (region 1) -/

theorem W4_v1 : W4 m ρ c (Proc.devRef .tc main_v1) = Cert.ReferenceIdeal.ReadP.val_main_v1 (F := Ideal) (m ((c : Thread nD τ).loc main_arg1)) :=
  (W4_of_ne m ρ c main_v1 (by decide)).trans (W3_v1 m ρ c)
theorem W4_v3 : W4 m ρ c (Proc.devRef .tc main_v3) = Cert.ReferenceIdeal.ReadP.val_main_v3 (F := Ideal) (m ((c : Thread nD τ).loc main_arg1)) :=
  (W4_of_ne m ρ c main_v3 (by decide)).trans (W3_v3 m ρ c)
theorem W4_v11 : W4 m ρ c (Proc.devRef .tc main_v11) = Cert.ReferenceIdeal.ReadP.val_main_v40 (F := Ideal) (m ((c : Thread nD τ).loc main_arg1)) :=
  (W4_of_ne m ρ c main_v11 (by decide)).trans (W3_v11 m ρ c)
theorem W4_v26 : W4 m ρ c (Proc.devRef .tc main_v26) = Cert.ReferenceIdeal.ReadP.val_main_v26 (F := Ideal) (m ((c : Thread nD τ).loc main_arg1)) :=
  (W4_of_ne m ρ c main_v26 (by decide)).trans (W3_v26 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
/-- The first layer's output: the scattered sum plus the self term plus the bias, clipped below at zero. -/
theorem W4_v43 : W4 m ρ c (Proc.devRef .tc main_v43) = Cert.ReferenceIdeal.ReadP.val_main_v48 (F := Ideal) (m ((c : Thread nD τ).loc main_arg0)) (m ((c : Thread nD τ).loc main_arg1)) (m ((c : Thread nD τ).loc main_arg2)) (m ((c : Thread nD τ).loc main_arg3)) :=
  (W4_arr m ρ c 4).trans (region1_value (V3 m ρ) c _ _ _ _ (W3_v40 m ρ c) (W3_v27 m ρ c) (W3_v42 m ρ c) (W3_v41 m ρ c))

/-! ### After the second dense product (region 2) -/

theorem W5_v1 : W5 m ρ c (Proc.devRef .tc main_v1) = Cert.ReferenceIdeal.ReadP.val_main_v1 (F := Ideal) (m ((c : Thread nD τ).loc main_arg1)) :=
  (W5_of_ne m ρ c main_v1 (by decide)).trans (W4_v1 m ρ c)
theorem W5_v3 : W5 m ρ c (Proc.devRef .tc main_v3) = Cert.ReferenceIdeal.ReadP.val_main_v3 (F := Ideal) (m ((c : Thread nD τ).loc main_arg1)) :=
  (W5_of_ne m ρ c main_v3 (by decide)).trans (W4_v3 m ρ c)
theorem W5_v11 : W5 m ρ c (Proc.devRef .tc main_v11) = Cert.ReferenceIdeal.ReadP.val_main_v40 (F := Ideal) (m ((c : Thread nD τ).loc main_arg1)) :=
  (W5_of_ne m ρ c main_v11 (by decide)).trans (W4_v11 m ρ c)
theorem W5_v26 : W5 m ρ c (Proc.devRef .tc main_v26) = Cert.ReferenceIdeal.ReadP.val_main_v26 (F := Ideal) (m ((c : Thread nD τ).loc main_arg1)) :=
  (W5_of_ne m ρ c main_v26 (by decide)).trans (W4_v26 m ρ c)
theorem W5_arg5 : W5 m ρ c (Proc.devRef .tc main_arg5) = m ((c : Thread nD τ).loc main_arg5) :=
  (W5_of_ne m ρ c main_arg5 (by decide)).trans (W4_arg5 m ρ c)
/-- The first layer's output through W₂. -/
theorem W5_v44 : W5 m ρ c (Proc.devRef .tc main_v44) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W5_arr m ρ c 2).trans (region2_value (V4 m ρ) c _ _ _ _ _ (W4_v43 m ρ c) (W4_arg4 m ρ c))

/-! ### After the third stretch of host operations -/

theorem W6_v44 : W6 m ρ c (Proc.devRef .tc main_v44) = Cert.ReferenceIdeal.ReadP.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W6, hostOps3]; after_results_simp; exact W5_v44 m ρ c
/-- The second layer's scattered sum. The reference computes the edge weights a second time, by the same operations of the
    same endpoints: the two are one term. -/
theorem W6_v57 : W6 m ρ c (Proc.devRef .tc main_v57) = Cert.ReferenceIdeal.ReadP.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W6, hostOps3]; after_results_simp
  rw [W5_v1 m ρ c, W5_v3 m ρ c, W5_v26 m ρ c, W5_v44 m ρ c]
  rfl
/-- The second bias as a one-row matrix. -/
theorem W6_v58 : W6 m ρ c (Proc.devRef .tc main_v58) = shapeCast _ (m ((c : Thread nD τ).loc main_arg5)) shapeCasts_S2_S1x2 := by
  dsimp only [W6, hostOps3]; after_results_simp
  rw [W5_arg5 m ρ c]
  rfl
/-- The self term's weight as a one-column matrix (the reference's second copy of it is the same term). -/
theorem W6_v59 : W6 m ρ c (Proc.devRef .tc main_v59) = shapeCast _ (Cert.ReferenceIdeal.ReadP.val_main_v85 (F := Ideal) (m ((c : Thread nD τ).loc main_arg1))) shapeCasts_S100000_S100000x1 := by
  dsimp only [W6, hostOps3]; after_results_simp
  rw [W5_v11 m ρ c]
  rfl

/-! ### After the second combination (region 3): the result -/

/-- The result buffer ends at the reference's last stage of the argument arrays. -/
theorem W7_v60 : W7 m ρ c (Proc.devRef .tc main_v60) = Cert.ReferenceIdeal.ReadP.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 4).trans (region3_value (V6 m ρ) c _ _ _ _ _ _ (W6_v57 m ρ c) (W6_v44 m ρ c) (W6_v59 m ρ c) (W6_v58 m ρ c))

end Cert.KernelIdeal.Bridge

end
-- ==== Proof.LibTypedRef.lean ====
/-
  Three facts for reading host operations at the exact values.

  A host operation inside an outlined function addresses its buffers through typed references, and what it computes is
  carried to and from a buffer's own contents type by a transport along the reference's type equation. Written through a
  reference and read back through the same reference, contents are unchanged: the two transports cancel, whatever the
  reference. At the exact extended-real values a widening of the float format is the identity on arrays, and the short
  format's zero pattern and the single format's zero pattern denote the same constant array, the number 0 everywhere.
  With these, two readings of one chain of host operations that differ only in the storage format of some operands
  become the same term. The module depends on the library only.
-/
import Idealize.ShloMosaic.Lib.StableHlo
import Idealize.ShloMosaic.Lib.IdealHost
import Idealize.ShloMosaic.Lib.ValueIdx

noncomputable section

namespace Idealize.ShloMosaic.StableHlo

/-- Contents written through a typed reference and read back through it are the contents. -/
theorem TRef.ofBuf_toBuf {sig : RefSig} {T : BufTy} {Val : EltTy → Type} (x : TRef sig T) (v : T.Contents Val) :
    x.ofBuf (x.toBuf v) = v := by
  obtain ⟨r, h, h1, h2⟩ := x
  subst h
  rfl

/-- Contents read through a typed reference and written back through it are the contents. -/
theorem TRef.toBuf_ofBuf {sig : RefSig} {T : BufTy} {Val : EltTy → Type} (x : TRef sig T) (v : x.ref.ty.Contents Val) :
    x.toBuf (x.ofBuf v) = v := by
  obtain ⟨r, h, h1, h2⟩ := x
  subst h
  rfl

end Idealize.ShloMosaic.StableHlo

namespace Idealize.ShloMosaic.ValueIdx

/-- At the exact values widening an array's float format changes nothing. -/
theorem extf_same {s : Shape} {φ ψ : FTy} (x : FVec Ideal s φ) (h : φ.bits < ψ.bits) : (extf ψ x h : FVec Ideal s ψ) = x := rfl

/-- At the exact values narrowing an array's float format changes nothing. -/
theorem truncf_same {s : Shape} {φ ψ : FTy} (x : FVec Ideal s φ) (h : ψ.bits < φ.bits) : (truncf ψ x h : FVec Ideal s ψ) = x := rfl

/-- The short format's zero pattern and the single format's zero pattern are the same constant array. -/
theorem zero_short (s : Shape) :
    (constant (F := Ideal) s .bf16 0x0000#16 : s.Idx → EReal) = constant (F := Ideal) s .f32 0x00000000#32 := by
  funext i
  show Ideal.ofBits .bf16 0x0000#16 = Ideal.ofBits .f32 0x00000000#32
  rw [Ideal.ofBits_zero_bf16, Ideal.ofBits_zero_f32]

end Idealize.ShloMosaic.ValueIdx

end
-- ==== Proof.LibAfterSplit.lean ====
/-
  Splitting the run of a straight line of host operations.

  The buffer contents after a line of host operations are a fold of the operations' results over the contents before it.
  The fold over a line is the fold over its first `n` operations followed by the fold over the rest, so a long line can be
  read a stretch at a time: name the contents at a cut, state what the buffers that later operations read hold there, and
  go on from the cut with those facts — no term ever spans more than one stretch. The module depends on the library only.
-/
import Idealize.ShloMosaic.Lib.StableHlo.Run

namespace Idealize.ShloMosaic.StableHlo

/-- The fold over a line of operations is the fold over its first `n`, then over the rest. -/
theorem after_split {τ : Topo} {sig : RefSig} {Val : EltTy → Type} (n : Nat) (l : List (HloOp τ sig Val))
    (V : Valuation τ sig Val) : after l V = after (l.drop n) (after (l.take n) V) := by
  induction l generalizing n V with
  | nil => cases n <;> rfl
  | cons op l ih =>
    cases n with
    | zero => rfl
    | succ n => simp only [List.take_succ_cons, List.drop_succ_cons, after_cons]; exact ih n _

/-- The fold over two lines one after the other. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons]; exact ih _

end Idealize.ShloMosaic.StableHlo
-- ==== Proof.RefValue.lean ====
/-
  The reference program's value. Its @main is a straight line of 130 host operations; the buffer contents after it are
  the fold of the operations' results over the launch contents. The fold is taken a stretch at a time — the graph's
  normalisation, the first layer, the normalisation again, the second layer, the log-softmax — and after each stretch the
  buffers later stretches read are named as the stages `val_main_vN` of the argument arrays: an operation's result is
  its function of its operands, and a buffer no operation of the stretch writes keeps its contents. The last stage is the
  program's result.
-/
import proofs.«181389_j21397527069336_1_alg».proof.Proof.RefRun
import proofs.«181389_j21397527069336_1_alg».proof.Proof.RefRead
import proofs.«181389_j21397527069336_1_alg».proof.Proof.LibTypedRef
import proofs.«181389_j21397527069336_1_alg».proof.Proof.LibAfterSplit

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ReadP

/-! ## Typed references at literal buffers

The operations of the two outlined functions (the maximum with zero, the log-softmax) address their buffers through
references that carry the value's type; a value is moved to and from the buffer's own contents type along the equation
of the two types. At a literal buffer the two types are the same and the move is the identity. -/

theorem ofBuf_v47 (h : main_v47.ty = (⟨S100000x128, .f32⟩ : BufTy)) (h1 : main_v47.space ≠ .host) (h2 : main_v47.isScoped = false)
    (u : (⟨S100000x128, .f32⟩ : BufTy).Contents (Elt Ideal)) :
    (TRef.of (T := ⟨S100000x128, .f32⟩) main_v47 h h1 h2).ofBuf u = u := rfl
theorem toBuf_v48 (h : main_v48.ty = (⟨S100000x128, .f32⟩ : BufTy)) (h1 : main_v48.space ≠ .host) (h2 : main_v48.isScoped = false)
    (u : (⟨S100000x128, .f32⟩ : BufTy).Contents (Elt Ideal)) :
    (TRef.of (T := ⟨S100000x128, .f32⟩) main_v48 h h1 h2).toBuf u = u := rfl
theorem ofBuf_v92 (h : main_v92.ty = (⟨S100000x2, .f32⟩ : BufTy)) (h1 : main_v92.space ≠ .host) (h2 : main_v92.isScoped = false)
    (u : (⟨S100000x2, .f32⟩ : BufTy).Contents (Elt Ideal)) :
    (TRef.of (T := ⟨S100000x2, .f32⟩) main_v92 h h1 h2).ofBuf u = u := rfl
theorem toBuf_v93 (h : main_v93.ty = (⟨S100000x2, .f32⟩ : BufTy)) (h1 : main_v93.space ≠ .host) (h2 : main_v93.isScoped = false)
    (u : (⟨S100000x2, .f32⟩ : BufTy).Contents (Elt Ideal)) :
    (TRef.of (T := ⟨S100000x2, .f32⟩) main_v93 h h1 h2).toBuf u = u := rfl

/-! ## The five stretches -/

/-- The graph's normalisation: endpoints, degrees, their inverse square roots, the edge weights; and x·W₁. -/
abbrev L1 : List (HloOp τ sig (Elt Ideal)) := (ValueP.ops (F := Ideal)).take 34
abbrev T1 : List (HloOp τ sig (Elt Ideal)) := (ValueP.ops (F := Ideal)).drop 34
/-- The first layer: gather, weight, scatter-add, self term, bias, relu; and the product with W₂. -/
abbrev L2 : List (HloOp τ sig (Elt Ideal)) := T1.take 28
abbrev T2 : List (HloOp τ sig (Elt Ideal)) := T1.drop 28
/-- The normalisation, computed again. -/
abbrev L3 : List (HloOp τ sig (Elt Ideal)) := T2.take 29
abbrev T3 : List (HloOp τ sig (Elt Ideal)) := T2.drop 29
/-- The second layer up to the bias. -/
abbrev L4 : List (HloOp τ sig (Elt Ideal)) := T3.take 24
/-- The log-softmax over each row. -/
abbrev L5 : List (HloOp τ sig (Elt Ideal)) := T3.drop 24

variable (m : (ℓ : Loc nD τ sig) → Buf (Elt Ideal) ℓ) (c : Dev nD)

/-- The buffer contents after each stretch. -/
def X1 : Valuation τ sig (Elt Ideal) := after L1 (launchContents m c)
def X2 : Valuation τ sig (Elt Ideal) := after L2 (X1 m c)
def X3 : Valuation τ sig (Elt Ideal) := after L3 (X2 m c)
def X4 : Valuation τ sig (Elt Ideal) := after L4 (X3 m c)
def X5 : Valuation τ sig (Elt Ideal) := after L5 (X4 m c)

theorem after_ops : after (ValueP.ops (F := Ideal)) (launchContents m c) = X5 m c := by
  unfold X5 X4 X3 X2 X1
  rw [after_split 34 ValueP.ops, after_split 28 T1, after_split 29 T2, after_split 24 T3]

/-! ## After the first stretch -/
theorem X1_arg0 : X1 m c (Proc.devRef .tc main_arg0) = m ((c.tc : Thread nD τ).loc main_arg0) := by
  unfold X1; simp only [L1, ValueP.ops, List.take_succ_cons, List.take_zero, List.drop_succ_cons, List.drop_zero]
  after_results_simp <;> rfl
theorem X1_arg1 : X1 m c (Proc.devRef .tc main_arg1) = m ((c.tc : Thread nD τ).loc main_arg1) := by
  unfold X1; simp only [L1, ValueP.ops, List.take_succ_cons, List.take_zero, List.drop_succ_cons, List.drop_zero]
  after_results_simp <;> rfl
theorem X1_arg2 : X1 m c (Proc.devRef .tc main_arg2) = m ((c.tc : Thread nD τ).loc main_arg2) := by
  unfold X1; simp only [L1, ValueP.ops, List.take_succ_cons, List.take_zero, List.drop_succ_cons, List.drop_zero]
  after_results_simp <;> rfl
theorem X1_arg3 : X1 m c (Proc.devRef .tc main_arg3) = m ((c.tc : Thread nD τ).loc main_arg3) := by
  unfold X1; simp only [L1, ValueP.ops, List.take_succ_cons, List.take_zero, List.drop_succ_cons, List.drop_zero]
  after_results_simp <;> rfl
theorem X1_arg4 : X1 m c (Proc.devRef .tc main_arg4) = m ((c.tc : Thread nD τ).loc main_arg4) := by
  unfold X1; simp only [L1, ValueP.ops, List.take_succ_cons, List.take_zero, List.drop_succ_cons, List.drop_zero]
  after_results_simp <;> rfl
theorem X1_arg5 : X1 m c (Proc.devRef .tc main_arg5) = m ((c.tc : Thread nD τ).loc main_arg5) := by
  unfold X1; simp only [L1, ValueP.ops, List.take_succ_cons, List.take_zero, List.drop_succ_cons, List.drop_zero]
  after_results_simp <;> rfl
/-- The edges' source endpoints. -/
theorem X1_v1 : X1 m c (Proc.devRef .tc main_v1) = val_main_v1 (F := Ideal) (m ((c.tc : Thread nD τ).loc main_arg1)) := by
  unfold X1; simp only [L1, ValueP.ops, List.take_succ_cons, List.take_zero, List.drop_succ_cons, List.drop_zero]
  after_results_simp <;> rfl
/-- The edges' target endpoints. -/
theorem X1_v3 : X1 m c (Proc.devRef .tc main_v3) = val_main_v3 (F := Ideal) (m ((c.tc : Thread nD τ).loc main_arg1)) := by
  unfold X1; simp only [L1, ValueP.ops, List.take_succ_cons, List.take_zero, List.drop_succ_cons, List.drop_zero]
  after_results_simp <;> rfl
/-- The first dense product x·W₁. -/
theorem X1_v4 : X1 m c (Proc.devRef .tc main_v4) = val_main_v4 (F := Ideal) (m ((c.tc : Thread nD τ).loc main_arg0)) (m ((c.tc : Thread nD τ).loc main_arg2)) := by
  unfold X1; simp only [L1, ValueP.ops, List.take_succ_cons, List.take_zero, List.drop_succ_cons, List.drop_zero]
  after_results_simp <;> rfl
/-- The inverse square root of the degrees. -/
theorem X1_v11 : X1 m c (Proc.devRef .tc main_v11) = val_main_v11 (F := Ideal) (m ((c.tc : Thread nD τ).loc main_arg1)) := by
  unfold X1; simp only [L1, ValueP.ops, List.take_succ_cons, List.take_zero, List.drop_succ_cons, List.drop_zero]
  after_results_simp <;> rfl
/-- The edge weights. -/
theorem X1_v26 : X1 m c (Proc.devRef .tc main_v26) = val_main_v26 (F := Ideal) (m ((c.tc : Thread nD τ).loc main_arg1)) := by
  unfold X1; simp only [L1, ValueP.ops, List.take_succ_cons, List.take_zero, List.drop_succ_cons, List.drop_zero]
  after_results_simp <;> rfl

/-! ## After the first layer -/

theorem X2_arg0 : X2 m c (Proc.devRef .tc main_arg0) = m ((c.tc : Thread nD τ).loc main_arg0) := by
  unfold X2; simp only [L2, T1, ValueP.ops, List.take_succ_cons, List.take_zero, List.drop_succ_cons, List.drop_zero]
  after_results_simp; exact X1_arg0 m c
theorem X2_arg1 : X2 m c (Proc.devRef .tc main_arg1) = m ((c.tc : Thread nD τ).loc main_arg1) := by
  unfold X2; simp only [L2, T1, ValueP.ops, List.take_succ_cons, List.take_zero, List.drop_succ_cons, List.drop_zero]
  after_results_simp; exact X1_arg1 m c
theorem X2_arg2 : X2 m c (Proc.devRef .tc main_arg2) = m ((c.tc : Thread nD τ).loc main_arg2) := by
  unfold X2; simp only [L2, T1, ValueP.ops, List.take_succ_cons, List.take_zero, List.drop_succ_cons, List.drop_zero]
  after_results_simp; exact X1_arg2 m c
theorem X2_arg3 : X2 m c (Proc.devRef .tc main_arg3) = m ((c.tc : Thread nD τ).loc main_arg3) := by
  unfold X2; simp only [L2, T1, ValueP.ops, List.take_succ_cons, List.take_zero, List.drop_succ_cons, List.drop_zero]
  after_results_simp; exact X1_arg3 m c
theorem X2_arg4 : X2 m c (Proc.devRef .tc main_arg4) = m ((c.tc : Thread nD τ).loc main_arg4) := by
  unfold X2; simp only [L2, T1, ValueP.ops, List.take_succ_cons, List.take_zero, List.drop_succ_cons, List.drop_zero]
  after_results_simp; exact X1_arg4 m c
theorem X2_arg5 : X2 m c (Proc.devRef .tc main_arg5) = m ((c.tc : Thread nD τ).loc main_arg5) := by
  unfold X2; simp only [L2, T1, ValueP.ops, List.take_succ_cons, List.take_zero, List.drop_succ_cons, List.drop_zero]
  after_results_simp; exact X1_arg5 m c
theorem X2_v1 : X2 m c (Proc.devRef .tc main_v1) = val_main_v1 (F := Ideal) (m ((c.tc : Thread nD τ).loc main_arg1)) := by
  unfold X2; simp only [L2, T1, ValueP.ops, List.take_succ_cons, List.take_zero, List.drop_succ_cons, List.drop_zero]
  after_results_simp; exact X1_v1 m c
theorem X2_v3 : X2 m c (Proc.devRef .tc main_v3) = val_main_v3 (F := Ideal) (m ((c.tc : Thread nD τ).loc main_arg1)) := by
  unfold X2; simp only [L2, T1, ValueP.ops, List.take_succ_cons, List.take_zero, List.drop_succ_cons, List.drop_zero]
  after_results_simp; exact X1_v3 m c
/-- The first layer's output through W₂. -/
theorem X2_v49 : X2 m c (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold X2; simp only [L2, T1, ValueP.ops, List.take_succ_cons, List.take_zero, List.drop_succ_cons, List.drop_zero]
  after_results_simp
  rw [X1_v1 m c, X1_v3 m c, X1_v4 m c, X1_v11 m c, X1_v26 m c, X1_arg3 m c, X1_arg4 m c]
  simp only [TRef.ofBuf_toBuf, ofBuf_v47, toBuf_v48]
  rfl

/-! ## After the second normalisation -/

theorem X3_arg0 : X3 m c (Proc.devRef .tc main_arg0) = m ((c.tc : Thread nD τ).loc main_arg0) := by
  unfold X3; simp only [L3, T1, T2, ValueP.ops, List.take_succ_cons, List.take_zero, List.drop_succ_cons, List.drop_zero]
  after_results_simp; exact X2_arg0 m c
theorem X3_arg1 : X3 m c (Proc.devRef .tc main_arg1) = m ((c.tc : Thread nD τ).loc main_arg1) := by
  unfold X3; simp only [L3, T1, T2, ValueP.ops, List.take_succ_cons, List.take_zero, List.drop_succ_cons, List.drop_zero]
  after_results_simp; exact X2_arg1 m c
theorem X3_arg2 : X3 m c (Proc.devRef .tc main_arg2) = m ((c.tc : Thread nD τ).loc main_arg2) := by
  unfold X3; simp only [L3, T1, T2, ValueP.ops, List.take_succ_cons, List.take_zero, List.drop_succ_cons, List.drop_zero]
  after_results_simp; exact X2_arg2 m c
theorem X3_arg3 : X3 m c (Proc.devRef .tc main_arg3) = m ((c.tc : Thread nD τ).loc main_arg3) := by
  unfold X3; simp only [L3, T1, T2, ValueP.ops, List.take_succ_cons, List.take_zero, List.drop_succ_cons, List.drop_zero]
  after_results_simp; exact X2_arg3 m c
theorem X3_arg4 : X3 m c (Proc.devRef .tc main_arg4) = m ((c.tc : Thread nD τ).loc main_arg4) := by
  unfold X3; simp only [L3, T1, T2, ValueP.ops, List.take_succ_cons, List.take_zero, List.drop_succ_cons, List.drop_zero]
  after_results_simp; exact X2_arg4 m c
theorem X3_arg5 : X3 m c (Proc.devRef .tc main_arg5) = m ((c.tc : Thread nD τ).loc main_arg5) := by
  unfold X3; simp only [L3, T1, T2, ValueP.ops, List.take_succ_cons, List.take_zero, List.drop_succ_cons, List.drop_zero]
  after_results_simp; exact X2_arg5 m c
theorem X3_v1 : X3 m c (Proc.devRef .tc main_v1) = val_main_v1 (F := Ideal) (m ((c.tc : Thread nD τ).loc main_arg1)) := by
  unfold X3; simp only [L3, T1, T2, ValueP.ops, List.take_succ_cons, List.take_zero, List.drop_succ_cons, List.drop_zero]
  after_results_simp; exact X2_v1 m c
theorem X3_v3 : X3 m c (Proc.devRef .tc main_v3) = val_main_v3 (F := Ideal) (m ((c.tc : Thread nD τ).loc main_arg1)) := by
  unfold X3; simp only [L3, T1, T2, ValueP.ops, List.take_succ_cons, List.take_zero, List.drop_succ_cons, List.drop_zero]
  after_results_simp; exact X2_v3 m c
theorem X3_v49 : X3 m c (Proc.devRef .tc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold X3; simp only [L3, T1, T2, ValueP.ops, List.take_succ_cons, List.take_zero, List.drop_succ_cons, List.drop_zero]
  after_results_simp; exact X2_v49 m c
/-- The inverse square root of the degrees, again. -/
theorem X3_v56 : X3 m c (Proc.devRef .tc main_v56) = val_main_v56 (F := Ideal) (m ((c.tc : Thread nD τ).loc main_arg1)) := by
  unfold X3; simp only [L3, T1, T2, ValueP.ops, List.take_succ_cons, List.take_zero, List.drop_succ_cons, List.drop_zero]
  after_results_simp
  rw [X2_v3 m c]
  rfl
/-- The edge weights, again. -/
theorem X3_v71 : X3 m c (Proc.devRef .tc main_v71) = val_main_v71 (F := Ideal) (m ((c.tc : Thread nD τ).loc main_arg1)) := by
  unfold X3; simp only [L3, T1, T2, ValueP.ops, List.take_succ_cons, List.take_zero, List.drop_succ_cons, List.drop_zero]
  after_results_simp
  rw [X2_v1 m c, X2_v3 m c]
  rfl

/-! ## After the second layer -/

theorem X4_arg0 : X4 m c (Proc.devRef .tc main_arg0) = m ((c.tc : Thread nD τ).loc main_arg0) := by
  unfold X4; simp only [L4, T1, T2, T3, ValueP.ops, List.take_succ_cons, List.take_zero, List.drop_succ_cons, List.drop_zero]
  after_results_simp; exact X3_arg0 m c
theorem X4_arg1 : X4 m c (Proc.devRef .tc main_arg1) = m ((c.tc : Thread nD τ).loc main_arg1) := by
  unfold X4; simp only [L4, T1, T2, T3, ValueP.ops, List.take_succ_cons, List.take_zero, List.drop_succ_cons, List.drop_zero]
  after_results_simp; exact X3_arg1 m c
theorem X4_arg2 : X4 m c (Proc.devRef .tc main_arg2) = m ((c.tc : Thread nD τ).loc main_arg2) := by
  unfold X4; simp only [L4, T1, T2, T3, ValueP.ops, List.take_succ_cons, List.take_zero, List.drop_succ_cons, List.drop_zero]
  after_results_simp; exact X3_arg2 m c
theorem X4_arg3 : X4 m c (Proc.devRef .tc main_arg3) = m ((c.tc : Thread nD τ).loc main_arg3) := by
  unfold X4; simp only [L4, T1, T2, T3, ValueP.ops, List.take_succ_cons, List.take_zero, List.drop_succ_cons, List.drop_zero]
  after_results_simp; exact X3_arg3 m c
theorem X4_arg4 : X4 m c (Proc.devRef .tc main_arg4) = m ((c.tc : Thread nD τ).loc main_arg4) := by
  unfold X4; simp only [L4, T1, T2, T3, ValueP.ops, List.take_succ_cons, List.take_zero, List.drop_succ_cons, List.drop_zero]
  after_results_simp; exact X3_arg4 m c
theorem X4_arg5 : X4 m c (Proc.devRef .tc main_arg5) = m ((c.tc : Thread nD τ).loc main_arg5) := by
  unfold X4; simp only [L4, T1, T2, T3, ValueP.ops, List.take_succ_cons, List.take_zero, List.drop_succ_cons, List.drop_zero]
  after_results_simp; exact X3_arg5 m c
/-- The second layer before the log-softmax. -/
theorem X4_v92 : X4 m c (Proc.devRef .tc main_v92) = val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold X4; simp only [L4, T1, T2, T3, ValueP.ops, List.take_succ_cons, List.take_zero, List.drop_succ_cons, List.drop_zero]
  after_results_simp
  rw [X3_v1 m c, X3_v3 m c, X3_v49 m c, X3_v56 m c, X3_v71 m c, X3_arg5 m c]
  rfl

/-! ## After the log-softmax -/

theorem X5_arg0 : X5 m c (Proc.devRef .tc main_arg0) = m ((c.tc : Thread nD τ).loc main_arg0) := by
  unfold X5; simp only [L5, T1, T2, T3, ValueP.ops, List.take_succ_cons, List.take_zero, List.drop_succ_cons, List.drop_zero]
  after_results_simp; exact X4_arg0 m c
theorem X5_arg1 : X5 m c (Proc.devRef .tc main_arg1) = m ((c.tc : Thread nD τ).loc main_arg1) := by
  unfold X5; simp only [L5, T1, T2, T3, ValueP.ops, List.take_succ_cons, List.take_zero, List.drop_succ_cons, List.drop_zero]
  after_results_simp; exact X4_arg1 m c
theorem X5_arg2 : X5 m c (Proc.devRef .tc main_arg2) = m ((c.tc : Thread nD τ).loc main_arg2) := by
  unfold X5; simp only [L5, T1, T2, T3, ValueP.ops, List.take_succ_cons, List.take_zero, List.drop_succ_cons, List.drop_zero]
  after_results_simp; exact X4_arg2 m c
theorem X5_arg3 : X5 m c (Proc.devRef .tc main_arg3) = m ((c.tc : Thread nD τ).loc main_arg3) := by
  unfold X5; simp only [L5, T1, T2, T3, ValueP.ops, List.take_succ_cons, List.take_zero, List.drop_succ_cons, List.drop_zero]
  after_results_simp; exact X4_arg3 m c
theorem X5_arg4 : X5 m c (Proc.devRef .tc main_arg4) = m ((c.tc : Thread nD τ).loc main_arg4) := by
  unfold X5; simp only [L5, T1, T2, T3, ValueP.ops, List.take_succ_cons, List.take_zero, List.drop_succ_cons, List.drop_zero]
  after_results_simp; exact X4_arg4 m c
theorem X5_arg5 : X5 m c (Proc.devRef .tc main_arg5) = m ((c.tc : Thread nD τ).loc main_arg5) := by
  unfold X5; simp only [L5, T1, T2, T3, ValueP.ops, List.take_succ_cons, List.take_zero, List.drop_succ_cons, List.drop_zero]
  after_results_simp; exact X4_arg5 m c
/-- The program's result. -/
theorem X5_v93 : X5 m c (Proc.devRef .tc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold X5; simp only [L5, T1, T2, T3, ValueP.ops, List.take_succ_cons, List.take_zero, List.drop_succ_cons, List.drop_zero]
  after_results_simp
  rw [X4_v92 m c]
  simp only [TRef.ofBuf_toBuf, ofBuf_v92, toBuf_v93]
  rfl

/-! ## The run -/

/-- Every weakly fair execution of the reference program terminates with its result buffer at the last stage of the
    argument arrays, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v93) = val_main_v93 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      have e : ∀ b : Ref sig .tc, _ = X5 m c (Proc.devRef .tc b) := fun b => (h c b).trans (congrFun (after_ops m c) _)
      exact ⟨(e main_v93).trans (X5_v93 m c), (e main_arg0).trans (X5_arg0 m c), (e main_arg1).trans (X5_arg1 m c),
        (e main_arg2).trans (X5_arg2 m c), (e main_arg3).trans (X5_arg3 m c), (e main_arg4).trans (X5_arg4 m c),
        (e main_arg5).trans (X5_arg5 m c)⟩)
    (run_seq ValueP.scopedRefs_eq ValueP.scopedSems_eq defs main (fun _ => ValueP.ops) ValueP.main_eq (fun _ => ValueP.ops_sub) m ρ)

end Cert.ReferenceIdeal.RefValue

end
-- ==== Proof.lean ====
/-
  The certificate of a two-layer graph convolution kernel against its jnp reference, at the exact extended-real values.

  Both programs compute, for a graph on 100000 nodes with 1600000 edges: the degree of each node (a scatter-add of ones
  over the edges' targets, plus one for the self loop), its inverse square root d, the edge weights d[src]·d[dst]; then per
  layer h = X·W, the scattered sum over incoming edges of the weighted source rows of h, plus the self term h·d², plus the
  bias; a maximum with zero after the first layer, a row-wise log-softmax after the second. The kernel program does the two
  dense products and the two combinations in blocked regions of 5000 nodes each (rounding the products' operands to a
  narrower format on the way in, which is the identity on the exact values) and everything over the edges by the same
  host operations as the reference; the reference computes the degrees and edge weights once per layer, the kernel once.

  The three frames: the kernel programs' are the generated frame proofs; the reference's is its run with the result
  dropped. The idealization rewrote nothing. For the value claim, the kernel program's result buffer is walked back
  through its segments (Proof/KernelValue.lean over the three region modules) and found to hold the reference's last stage
  of the argument arrays, which is what the reference's run leaves (Proof/RefValue.lean); no law of arithmetic beyond the
  equality of the operations themselves is needed, and the finiteness of the inputs is not used.
-/
import proofs.«181389_j21397527069336_1_alg».proof.Defs
import proofs.«181389_j21397527069336_1_alg».proof.Proof.Gen.Kernel
import proofs.«181389_j21397527069336_1_alg».proof.Proof.Gen.Kernel.Frame
import proofs.«181389_j21397527069336_1_alg».proof.Proof.Gen.KernelIdeal
import proofs.«181389_j21397527069336_1_alg».proof.Proof.Gen.KernelIdeal.Frame
import proofs.«181389_j21397527069336_1_alg».proof.Proof.Gen.ReferenceIdeal
import proofs.«181389_j21397527069336_1_alg».proof.Proof.Gen.Pre_finite_inputs
import proofs.«181389_j21397527069336_1_alg».proof.Proof.KernelRun
import proofs.«181389_j21397527069336_1_alg».proof.Proof.KernelValue
import proofs.«181389_j21397527069336_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both programs end with the result at the reference's last stage of those
    arguments. -/
theorem algebraic : Cert.algebraic_KernelIdeal_ReferenceIdeal := by
  intro m ρ m' ρ' _ hagree
  refine ⟨fun c => Cert.ReferenceIdeal.ReadP.val_main_v93 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Bridge.W7_v60 m ρ c), (h c).2⟩)
      (Cert.KernelIdeal.Bridge.run_result m ρ)
  · refine (θ_run Cert.ReferenceIdeal.defs _ _).mono (fun _ h c => ⟨(h c).1.trans ?_, (h c).2⟩) (Cert.ReferenceIdeal.RefValue.run m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
